-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x512x512 : Shape := ⟨4, ![4, 3, 512, 512]⟩
abbrev S4x75x512x512 : Shape := ⟨4, ![4, 75, 512, 512]⟩
abbrev S_ : Shape := ⟨0, ![]⟩

class Facts : Prop where
  bcast_S_S4x3x512x512 : S_.BroadcastsInDim S4x3x512x512 (![] : Fin 0 → Fin S4x3x512x512.rank)
  reducesTo_S4x3x512x512_S_d0_1_2_3 : S4x3x512x512.ReducesTo [0, 1, 2, 3] S_
  h_S_ : 0 < S_.numel
  bcast_S_S4x75x512x512 : S_.BroadcastsInDim S4x75x512x512 (![] : Fin 0 → Fin S4x75x512x512.rank)
  reducesTo_S4x75x512x512_S_d0_1_2_3 : S4x75x512x512.ReducesTo [0, 1, 2, 3] S_

variable [Facts]

def fn {F : FTy → Type} [FloatOps F] (main_arg0 : FVec F S4x3x512x512 .f32) (main_arg1 : FVec F S4x75x512x512 .f32) : IVec S_ 1 :=
  let main_v0 : FVec F S4x3x512x512 .f32 := Host.absf main_arg0
  let main_cst : FVec F S_ .f32 := constant S_ .f32 0x7F800000#32
  let main_v1 : FVec F S4x3x512x512 .f32 := broadcastInDim S4x3x512x512 ![] bcast_S_S4x3x512x512 main_cst
  let main_v2 : IVec S4x3x512x512 1 := cmpf .olt main_v0 main_v1
  let main_c : IVec S_ 1 := constantI S_ 1 1#1
  let main_v3 : IVec S_ 1 := (fun x v => Host.reduce IntOp.andi x v reducesTo_S4x3x512x512_S_d0_1_2_3 h_S_) main_v2 main_c
  let main_v4 : FVec F S4x75x512x512 .f32 := Host.absf main_arg1
  let main_cst_0 : FVec F S_ .f32 := constant S_ .f32 0x7F800000#32
  let main_v5 : FVec F S4x75x512x512 .f32 := broadcastInDim S4x75x512x512 ![] bcast_S_S4x75x512x512 main_cst_0
  let main_v6 : IVec S4x75x512x512 1 := cmpf .olt main_v4 main_v5
  let main_c_1 : IVec S_ 1 := constantI S_ 1 1#1
  let main_v7 : IVec S_ 1 := (fun x v => Host.reduce IntOp.andi x v reducesTo_S4x75x512x512_S_d0_1_2_3 h_S_) main_v6 main_c_1
  let main_v8 : IVec S_ 1 := andi main_v3 main_v7
  main_v8
-- ==== Kernel.lean ====
abbrev S4x3x512x512 : Shape := ⟨4, ![4, 3, 512, 512]⟩
abbrev S4x75x512x512 : Shape := ⟨4, ![4, 75, 512, 512]⟩
abbrev S_ : Shape := ⟨0, ![]⟩
abbrev S4x3x520x640 : Shape := ⟨4, ![4, 3, 520, 640]⟩
abbrev S4x1x512x512 : Shape := ⟨4, ![4, 1, 512, 512]⟩
abbrev S1x3x520x640 : Shape := ⟨4, ![1, 3, 520, 640]⟩
abbrev S1x75x64x512 : Shape := ⟨4, ![1, 75, 64, 512]⟩
abbrev S1x1x64x512 : Shape := ⟨4, ![1, 1, 64, 512]⟩
abbrev S64x512 : Shape := ⟨2, ![64, 512]⟩
abbrev S1x1x520x640 : Shape := ⟨4, ![1, 1, 520, 640]⟩
abbrev S520x640 : Shape := ⟨2, ![520, 640]⟩
abbrev S72x640 : Shape := ⟨2, ![72, 640]⟩

abbrev nBuf : Space → Nat
  | .hbm => 6
  | .vmem => 6
  | .smem => 0
  | _ => 0

abbrev bufTy : (tb : Table) → Fin (tcTables nBuf tb) → BufTy
  | .hbm, ⟨0, _⟩ => ⟨S4x3x512x512, .f32⟩
  | .hbm, ⟨1, _⟩ => ⟨S4x75x512x512, .f32⟩
  | .hbm, ⟨2, _⟩ => ⟨S_, .i32⟩
  | .hbm, ⟨3, _⟩ => ⟨S_, .f32⟩
  | .hbm, ⟨4, _⟩ => ⟨S4x3x520x640, .f32⟩
  | .hbm, ⟨5, _⟩ => ⟨S4x1x512x512, .f32⟩
  | .local _ .vmem, ⟨0, _⟩ => ⟨S1x3x520x640, .f32⟩
  | .local _ .vmem, ⟨1, _⟩ => ⟨S1x3x520x640, .f32⟩
  | .local _ .vmem, ⟨2, _⟩ => ⟨S1x75x64x512, .f32⟩
  | .local _ .vmem, ⟨3, _⟩ => ⟨S1x75x64x512, .f32⟩
  | .local _ .vmem, ⟨4, _⟩ => ⟨S1x1x64x512, .f32⟩
  | .local _ .vmem, ⟨5, _⟩ => ⟨S1x1x64x512, .f32⟩
  | _, _ => ⟨S4x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c64_i32 : BitVec 32 := 64#32
  let v0 : BitVec 32 := Scalar.muli arg1 c64_i32
  v0
def k0_off1 (i : grid0.Coords) : Fin 2 → Nat :=
  let arg1 : BitVec 32 := BitVec.ofNat 32 (i 1).val
  let c64_i32 : BitVec 32 := 64#32
  let v0 : BitVec 32 := Scalar.muli arg1 c64_i32
  let v1 : BitVec 32 := v0
  let v5 : Index := Scalar.indexCast v1
  let c0 : Index := 0#32
  ![v5.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x520x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x75x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S4x3x512x512_S4x3x520x640_000_000_260_21260 : S4x3x512x512.Pads (![0, 0, 2, 2] : Fin 4 → Nat) ![0, 0, 6, 126] ![0, 0, 0, 0] S4x3x520x640
  h_S_ : 0 < S_.numel
  inb_S1x3x520x640_S1x1x520x640_0_0_0_0 : ∀ a, (![0, 0, 0, 0] : Fin 4 → Nat) a + S1x1x520x640.size a ≤ S1x3x520x640.size a
  squeezes_S1x1x520x640_S520x640 : S1x1x520x640.Squeezes S520x640
  h_S72x640 : 0 < S72x640.numel
  shapeCasts_S72x640_S72x640 : S72x640.ShapeCasts S72x640
  slices_S72x640_o0_0_S64x512 : S72x640.Slices ![0, 0] S64x512
  inb_S1x75x64x512_S1x1x64x512_0_0_0_0 : ∀ a, (![0, 0, 0, 0] : Fin 4 → Nat) a + S1x1x64x512.size a ≤ S1x75x64x512.size a
  h_S1x1x64x512 : 0 < S1x1x64x512.numel
  shapeCasts_S1x1x64x512_S64x512 : S1x1x64x512.ShapeCasts S64x512
  slices_S72x640_o0_1_S64x512 : S72x640.Slices ![0, 1] S64x512
  inb_S1x75x64x512_S1x1x64x512_0_1_0_0 : ∀ a, (![0, 1, 0, 0] : Fin 4 → Nat) a + S1x1x64x512.size a ≤ S1x75x64x512.size a
  slices_S72x640_o0_2_S64x512 : S72x640.Slices ![0, 2] S64x512
  inb_S1x75x64x512_S1x1x64x512_0_2_0_0 : ∀ a, (![0, 2, 0, 0] : Fin 4 → Nat) a + S1x1x64x512.size a ≤ S1x75x64x512.size a
  slices_S72x640_o0_3_S64x512 : S72x640.Slices ![0, 3] S64x512
  inb_S1x75x64x512_S1x1x64x512_0_3_0_0 : ∀ a, (![0, 3, 0, 0] : Fin 4 → Nat) a + S1x1x64x512.size a ≤ S1x75x64x512.size a
  slices_S72x640_o0_4_S64x512 : S72x640.Slices ![0, 4] S64x512
  inb_S1x75x64x512_S1x1x64x512_0_4_0_0 : ∀ a, (![0, 4, 0, 0] : Fin 4 → Nat) a + S1x1x64x512.size a ≤ S1x75x64x512.size a
  slices_S72x640_o1_0_S64x512 : S72x640.Slices ![1, 0] S64x512
  inb_S1x75x64x512_S1x1x64x512_0_5_0_0 : ∀ a, (![0, 5, 0, 0] : Fin 4 → Nat) a + S1x1x64x512.size a ≤ S1x75x64x512.size a
  slices_S72x640_o1_1_S64x512 : S72x640.Slices ![1, 1] S64x512
  inb_S1x75x64x512_S1x1x64x512_0_6_0_0 : ∀ a, (![0, 6, 0, 0] : Fin 4 → Nat) a + S1x1x64x512.size a ≤ S1x75x64x512.size a
  slices_S72x640_o1_2_S64x512 : S72x640.Slices ![1, 2] S64x512
  inb_S1x75x64x512_S1x1x64x512_0_7_0_0 : ∀ a, (![0, 7, 0, 0] : Fin 4 → Nat) a + S1x1x64x512.size a ≤ S1x75x64x512.size a
  slices_S72x640_o1_3_S64x512 : S72x640.Slices ![1, 3] S64x512
  inb_S1x75x64x512_S1x1x64x512_0_8_0_0 : ∀ a, (![0, 8, 0, 0] : Fin 4 → Nat) a + S1x1x64x512.size a ≤ S1x75x64x512.size a
  slices_S72x640_o1_4_S64x512 : S72x640.Slices ![1, 4] S64x512
  inb_S1x75x64x512_S1x1x64x512_0_9_0_0 : ∀ a, (![0, 9, 0, 0] : Fin 4 → Nat) a + S1x1x64x512.size a ≤ S1x75x64x512.size a
  slices_S72x640_o2_0_S64x512 : S72x640.Slices ![2, 0] S64x512
  inb_S1x75x64x512_S1x1x64x512_0_10_0_0 : ∀ a, (![0, 10, 0, 0] : Fin 4 → Nat) a + S1x1x64x512.size a ≤ S1x75x64x512.size a
  slices_S72x640_o2_1_S64x512 : S72x640.Slices ![2, 1] S64x512
  inb_S1x75x64x512_S1x1x64x512_0_11_0_0 : ∀ a, (![0, 11, 0, 0] : Fin 4 → Nat) a + S1x1x64x512.size a ≤ S1x75x64x512.size a
  slices_S72x640_o2_2_S64x512 : S72x640.Slices ![2, 2] S64x512
  inb_S1x75x64x512_S1x1x64x512_0_12_0_0 : ∀ a, (![0, 12, 0, 0] : Fin 4 → Nat) a + S1x1x64x512.size a ≤ S1x75x64x512.size a
  slices_S72x640_o2_3_S64x512 : S72x640.Slices ![2, 3] S64x512
  inb_S1x75x64x512_S1x1x64x512_0_13_0_0 : ∀ a, (![0, 13, 0, 0] : Fin 4 → Nat) a + S1x1x64x512.size a ≤ S1x75x64x512.size a
  slices_S72x640_o2_4_S64x512 : S72x640.Slices ![2, 4] S64x512
  inb_S1x75x64x512_S1x1x64x512_0_14_0_0 : ∀ a, (![0, 14, 0, 0] : Fin 4 → Nat) a + S1x1x64x512.size a ≤ S1x75x64x512.size a
  slices_S72x640_o3_0_S64x512 : S72x640.Slices ![3, 0] S64x512
  inb_S1x75x64x512_S1x1x64x512_0_15_0_0 : ∀ a, (![0, 15, 0, 0] : Fin 4 → Nat) a + S1x1x64x512.size a ≤ S1x75x64x512.size a
  slices_S72x640_o3_1_S64x512 : S72x640.Slices ![3, 1] S64x512
  inb_S1x75x64x512_S1x1x64x512_0_16_0_0 : ∀ a, (![0, 16, 0, 0] : Fin 4 → Nat) a + S1x1x64x512.size a ≤ S1x75x64x512.size a
  slices_S72x640_o3_2_S64x512 : S72x640.Slices ![3, 2] S64x512
  inb_S1x75x64x512_S1x1x64x512_0_17_0_0 : ∀ a, (![0, 17, 0, 0] : Fin 4 → Nat) a + S1x1x64x512.size a ≤ S1x75x64x512.size a
  slices_S72x640_o3_3_S64x512 : S72x640.Slices ![3, 3] S64x512
  inb_S1x75x64x512_S1x1x64x512_0_18_0_0 : ∀ a, (![0, 18, 0, 0] : Fin 4 → Nat) a + S1x1x64x512.size a ≤ S1x75x64x512.size a
  slices_S72x640_o3_4_S64x512 : S72x640.Slices ![3, 4] S64x512
  inb_S1x75x64x512_S1x1x64x512_0_19_0_0 : ∀ a, (![0, 19, 0, 0] : Fin 4 → Nat) a + S1x1x64x512.size a ≤ S1x75x64x512.size a
  slices_S72x640_o4_0_S64x512 : S72x640.Slices ![4, 0] S64x512
  inb_S1x75x64x512_S1x1x64x512_0_20_0_0 : ∀ a, (![0, 20, 0, 0] : Fin 4 → Nat) a + S1x1x64x512.size a ≤ S1x75x64x512.size a
  slices_S72x640_o4_1_S64x512 : S72x640.Slices ![4, 1] S64x512
  inb_S1x75x64x512_S1x1x64x512_0_21_0_0 : ∀ a, (![0, 21, 0, 0] : Fin 4 → Nat) a + S1x1x64x512.size a ≤ S1x75x64x512.size a
  slices_S72x640_o4_2_S64x512 : S72x640.Slices ![4, 2] S64x512
  inb_S1x75x64x512_S1x1x64x512_0_22_0_0 : ∀ a, (![0, 22, 0, 0] : Fin 4 → Nat) a + S1x1x64x512.size a ≤ S1x75x64x512.size a
  slices_S72x640_o4_3_S64x512 : S72x640.Slices ![4, 3] S64x512
  inb_S1x75x64x512_S1x1x64x512_0_23_0_0 : ∀ a, (![0, 23, 0, 0] : Fin 4 → Nat) a + S1x1x64x512.size a ≤ S1x75x64x512.size a
  slices_S72x640_o4_4_S64x512 : S72x640.Slices ![4, 4] S64x512
  inb_S1x75x64x512_S1x1x64x512_0_24_0_0 : ∀ a, (![0, 24, 0, 0] : Fin 4 → Nat) a + S1x1x64x512.size a ≤ S1x75x64x512.size a
  inb_S1x3x520x640_S1x1x520x640_0_1_0_0 : ∀ a, (![0, 1, 0, 0] : Fin 4 → Nat) a + S1x1x520x640.size a ≤ S1x3x520x640.size a
  inb_S1x75x64x512_S1x1x64x512_0_25_0_0 : ∀ a, (![0, 25, 0, 0] : Fin 4 → Nat) a + S1x1x64x512.size a ≤ S1x75x64x512.size a
  inb_S1x75x64x512_S1x1x64x512_0_26_0_0 : ∀ a, (![0, 26, 0, 0] : Fin 4 → Nat) a + S1x1x64x512.size a ≤ S1x75x64x512.size a
  inb_S1x75x64x512_S1x1x64x512_0_27_0_0 : ∀ a, (![0, 27, 0, 0] : Fin 4 → Nat) a + S1x1x64x512.size a ≤ S1x75x64x512.size a
  inb_S1x75x64x512_S1x1x64x512_0_28_0_0 : ∀ a, (![0, 28, 0, 0] : Fin 4 → Nat) a + S1x1x64x512.size a ≤ S1x75x64x512.size a
  inb_S1x75x64x512_S1x1x64x512_0_29_0_0 : ∀ a, (![0, 29, 0, 0] : Fin 4 → Nat) a + S1x1x64x512.size a ≤ S1x75x64x512.size a
  inb_S1x75x64x512_S1x1x64x512_0_30_0_0 : ∀ a, (![0, 30, 0, 0] : Fin 4 → Nat) a + S1x1x64x512.size a ≤ S1x75x64x512.size a
  inb_S1x75x64x512_S1x1x64x512_0_31_0_0 : ∀ a, (![0, 31, 0, 0] : Fin 4 → Nat) a + S1x1x64x512.size a ≤ S1x75x64x512.size a
  inb_S1x75x64x512_S1x1x64x512_0_32_0_0 : ∀ a, (![0, 32, 0, 0] : Fin 4 → Nat) a + S1x1x64x512.size a ≤ S1x75x64x512.size a
  inb_S1x75x64x512_S1x1x64x512_0_33_0_0 : ∀ a, (![0, 33, 0, 0] : Fin 4 → Nat) a + S1x1x64x512.size a ≤ S1x75x64x512.size a
  inb_S1x75x64x512_S1x1x64x512_0_34_0_0 : ∀ a, (![0, 34, 0, 0] : Fin 4 → Nat) a + S1x1x64x512.size a ≤ S1x75x64x512.size a
  inb_S1x75x64x512_S1x1x64x512_0_35_0_0 : ∀ a, (![0, 35, 0, 0] : Fin 4 → Nat) a + S1x1x64x512.size a ≤ S1x75x64x512.size a
  inb_S1x75x64x512_S1x1x64x512_0_36_0_0 : ∀ a, (![0, 36, 0, 0] : Fin 4 → Nat) a + S1x1x64x512.size a ≤ S1x75x64x512.size a
  inb_S1x75x64x512_S1x1x64x512_0_37_0_0 : ∀ a, (![0, 37, 0, 0] : Fin 4 → Nat) a + S1x1x64x512.size a ≤ S1x75x64x512.size a
  inb_S1x75x64x512_S1x1x64x512_0_38_0_0 : ∀ a, (![0, 38, 0, 0] : Fin 4 → Nat) a + S1x1x64x512.size a ≤ S1x75x64x512.size a
  inb_S1x75x64x512_S1x1x64x512_0_39_0_0 : ∀ a, (![0, 39, 0, 0] : Fin 4 → Nat) a + S1x1x64x512.size a ≤ S1x75x64x512.size a
  inb_S1x75x64x512_S1x1x64x512_0_40_0_0 : ∀ a, (![0, 40, 0, 0] : Fin 4 → Nat) a + S1x1x64x512.size a ≤ S1x75x64x512.size a
  inb_S1x75x64x512_S1x1x64x512_0_41_0_0 : ∀ a, (![0, 41, 0, 0] : Fin 4 → Nat) a + S1x1x64x512.size a ≤ S1x75x64x512.size a
  inb_S1x75x64x512_S1x1x64x512_0_42_0_0 : ∀ a, (![0, 42, 0, 0] : Fin 4 → Nat) a + S1x1x64x512.size a ≤ S1x75x64x512.size a
  inb_S1x75x64x512_S1x1x64x512_0_43_0_0 : ∀ a, (![0, 43, 0, 0] : Fin 4 → Nat) a + S1x1x64x512.size a ≤ S1x75x64x512.size a
  inb_S1x75x64x512_S1x1x64x512_0_44_0_0 : ∀ a, (![0, 44, 0, 0] : Fin 4 → Nat) a + S1x1x64x512.size a ≤ S1x75x64x512.size a
  inb_S1x75x64x512_S1x1x64x512_0_45_0_0 : ∀ a, (![0, 45, 0, 0] : Fin 4 → Nat) a + S1x1x64x512.size a ≤ S1x75x64x512.size a
  inb_S1x75x64x512_S1x1x64x512_0_46_0_0 : ∀ a, (![0, 46, 0, 0] : Fin 4 → Nat) a + S1x1x64x512.size a ≤ S1x75x64x512.size a
  inb_S1x75x64x512_S1x1x64x512_0_47_0_0 : ∀ a, (![0, 47, 0, 0] : Fin 4 → Nat) a + S1x1x64x512.size a ≤ S1x75x64x512.size a
  inb_S1x75x64x512_S1x1x64x512_0_48_0_0 : ∀ a, (![0, 48, 0, 0] : Fin 4 → Nat) a + S1x1x64x512.size a ≤ S1x75x64x512.size a
  inb_S1x75x64x512_S1x1x64x512_0_49_0_0 : ∀ a, (![0, 49, 0, 0] : Fin 4 → Nat) a + S1x1x64x512.size a ≤ S1x75x64x512.size a
  inb_S1x3x520x640_S1x1x520x640_0_2_0_0 : ∀ a, (![0, 2, 0, 0] : Fin 4 → Nat) a + S1x1x520x640.size a ≤ S1x3x520x640.size a
  inb_S1x75x64x512_S1x1x64x512_0_50_0_0 : ∀ a, (![0, 50, 0, 0] : Fin 4 → Nat) a + S1x1x64x512.size a ≤ S1x75x64x512.size a
  inb_S1x75x64x512_S1x1x64x512_0_51_0_0 : ∀ a, (![0, 51, 0, 0] : Fin 4 → Nat) a + S1x1x64x512.size a ≤ S1x75x64x512.size a
  inb_S1x75x64x512_S1x1x64x512_0_52_0_0 : ∀ a, (![0, 52, 0, 0] : Fin 4 → Nat) a + S1x1x64x512.size a ≤ S1x75x64x512.size a
  inb_S1x75x64x512_S1x1x64x512_0_53_0_0 : ∀ a, (![0, 53, 0, 0] : Fin 4 → Nat) a + S1x1x64x512.size a ≤ S1x75x64x512.size a
  inb_S1x75x64x512_S1x1x64x512_0_54_0_0 : ∀ a, (![0, 54, 0, 0] : Fin 4 → Nat) a + S1x1x64x512.size a ≤ S1x75x64x512.size a
  inb_S1x75x64x512_S1x1x64x512_0_55_0_0 : ∀ a, (![0, 55, 0, 0] : Fin 4 → Nat) a + S1x1x64x512.size a ≤ S1x75x64x512.size a
  inb_S1x75x64x512_S1x1x64x512_0_56_0_0 : ∀ a, (![0, 56, 0, 0] : Fin 4 → Nat) a + S1x1x64x512.size a ≤ S1x75x64x512.size a
  inb_S1x75x64x512_S1x1x64x512_0_57_0_0 : ∀ a, (![0, 57, 0, 0] : Fin 4 → Nat) a + S1x1x64x512.size a ≤ S1x75x64x512.size a
  inb_S1x75x64x512_S1x1x64x512_0_58_0_0 : ∀ a, (![0, 58, 0, 0] : Fin 4 → Nat) a + S1x1x64x512.size a ≤ S1x75x64x512.size a
  inb_S1x75x64x512_S1x1x64x512_0_59_0_0 : ∀ a, (![0, 59, 0, 0] : Fin 4 → Nat) a + S1x1x64x512.size a ≤ S1x75x64x512.size a
  inb_S1x75x64x512_S1x1x64x512_0_60_0_0 : ∀ a, (![0, 60, 0, 0] : Fin 4 → Nat) a + S1x1x64x512.size a ≤ S1x75x64x512.size a
  inb_S1x75x64x512_S1x1x64x512_0_61_0_0 : ∀ a, (![0, 61, 0, 0] : Fin 4 → Nat) a + S1x1x64x512.size a ≤ S1x75x64x512.size a
  inb_S1x75x64x512_S1x1x64x512_0_62_0_0 : ∀ a, (![0, 62, 0, 0] : Fin 4 → Nat) a + S1x1x64x512.size a ≤ S1x75x64x512.size a
  inb_S1x75x64x512_S1x1x64x512_0_63_0_0 : ∀ a, (![0, 63, 0, 0] : Fin 4 → Nat) a + S1x1x64x512.size a ≤ S1x75x64x512.size a
  inb_S1x75x64x512_S1x1x64x512_0_64_0_0 : ∀ a, (![0, 64, 0, 0] : Fin 4 → Nat) a + S1x1x64x512.size a ≤ S1x75x64x512.size a
  inb_S1x75x64x512_S1x1x64x512_0_65_0_0 : ∀ a, (![0, 65, 0, 0] : Fin 4 → Nat) a + S1x1x64x512.size a ≤ S1x75x64x512.size a
  inb_S1x75x64x512_S1x1x64x512_0_66_0_0 : ∀ a, (![0, 66, 0, 0] : Fin 4 → Nat) a + S1x1x64x512.size a ≤ S1x75x64x512.size a
  inb_S1x75x64x512_S1x1x64x512_0_67_0_0 : ∀ a, (![0, 67, 0, 0] : Fin 4 → Nat) a + S1x1x64x512.size a ≤ S1x75x64x512.size a
  inb_S1x75x64x512_S1x1x64x512_0_68_0_0 : ∀ a, (![0, 68, 0, 0] : Fin 4 → Nat) a + S1x1x64x512.size a ≤ S1x75x64x512.size a
  inb_S1x75x64x512_S1x1x64x512_0_69_0_0 : ∀ a, (![0, 69, 0, 0] : Fin 4 → Nat) a + S1x1x64x512.size a ≤ S1x75x64x512.size a
  inb_S1x75x64x512_S1x1x64x512_0_70_0_0 : ∀ a, (![0, 70, 0, 0] : Fin 4 → Nat) a + S1x1x64x512.size a ≤ S1x75x64x512.size a
  inb_S1x75x64x512_S1x1x64x512_0_71_0_0 : ∀ a, (![0, 71, 0, 0] : Fin 4 → Nat) a + S1x1x64x512.size a ≤ S1x75x64x512.size a
  inb_S1x75x64x512_S1x1x64x512_0_72_0_0 : ∀ a, (![0, 72, 0, 0] : Fin 4 → Nat) a + S1x1x64x512.size a ≤ S1x75x64x512.size a
  inb_S1x75x64x512_S1x1x64x512_0_73_0_0 : ∀ a, (![0, 73, 0, 0] : Fin 4 → Nat) a + S1x1x64x512.size a ≤ S1x75x64x512.size a
  inb_S1x75x64x512_S1x1x64x512_0_74_0_0 : ∀ a, (![0, 74, 0, 0] : Fin 4 → Nat) a + S1x1x64x512.size a ≤ S1x75x64x512.size a
  inb_S1x1x64x512_S1x1x64x512_0_0_0_0 : ∀ a, (![0, 0, 0, 0] : Fin 4 → Nat) a + S1x1x64x512.size a ≤ S1x1x64x512.size a
  shapeCasts_S64x512_S1x1x64x512 : S64x512.ShapeCasts S1x1x64x512
  hrank0 : 0 < grid0.rank
  k0_mult1_dvd : ∀ i : grid0.Coords, 64 ∣ (k0_mult1 i).toNat
  k0_off1_inb : ∀ i : grid0.Coords, ∀ a, (k0_off1 i) a + S72x640.size a ≤ S520x640.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x520x640.size a ≤ S4x3x520x640.size a
  hwx0_0 : ∀ i : grid0.Coords, EltTy.bits .f32 = 32 ∨ (Rect.block (s := S4x3x520x640) S1x3x520x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x75x64x512.size a ≤ S4x75x512x512.size a
  hwx0_1 : ∀ i : grid0.Coords, EltTy.bits .f32 = 32 ∨ (Rect.block (s := S4x75x512x512) S1x75x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64x512.size a ≤ S4x1x512x512.size a
  hwx0_2 : ∀ i : grid0.Coords, EltTy.bits .f32 = 32 ∨ (Rect.block (s := S4x1x512x512) S1x1x64x512.size (cc0_transform_2 i) (hinb0_2 i)).WholeWords (EltTy.packing .f32)

variable [Facts₀]

abbrev win0_0 : Pipeline.Window sig grid0 :=
  Pipeline.Window.ofSpec (Memref.whole main_v0) S1x3x520x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x75x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x64x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x3x512x512 : Shape := ⟨4, ![4, 3, 512, 512]⟩
abbrev S4x75x512x512 : Shape := ⟨4, ![4, 75, 512, 512]⟩
abbrev S_ : Shape := ⟨0, ![]⟩
abbrev S4x3x516x516 : Shape := ⟨4, ![4, 3, 516, 516]⟩
abbrev S4x3x1x512x512 : Shape := ⟨5, ![4, 3, 1, 512, 512]⟩
abbrev S4x3x16x512x512 : Shape := ⟨5, ![4, 3, 16, 512, 512]⟩
abbrev S4x3x9x512x512 : Shape := ⟨5, ![4, 3, 9, 512, 512]⟩
abbrev S4x3x25x512x512 : Shape := ⟨5, ![4, 3, 25, 512, 512]⟩
abbrev S4x512x512 : Shape := ⟨3, ![4, 512, 512]⟩
abbrev S4x1x512x512 : Shape := ⟨4, ![4, 1, 512, 512]⟩

abbrev nBuf : Space → Nat
  | .hbm => 63
  | .vmem => 0
  | .smem => 0
  | _ => 0

abbrev bufTy : (tb : Table) → Fin (tcTables nBuf tb) → BufTy
  | .hbm, ⟨0, _⟩ => ⟨S4x3x512x512, .f32⟩
  | .hbm, ⟨1, _⟩ => ⟨S4x75x512x512, .f32⟩
  | .hbm, ⟨2, _⟩ => ⟨S_, .i32⟩
  | .hbm, ⟨3, _⟩ => ⟨S_, .f32⟩
  | .hbm, ⟨4, _⟩ => ⟨S4x3x516x516, .f32⟩
  | .hbm, ⟨5, _⟩ => ⟨S4x3x512x512, .f32⟩
  | .hbm, ⟨6, _⟩ => ⟨S4x3x512x512, .f32⟩
  | .hbm, ⟨7, _⟩ => ⟨S4x3x512x512, .f32⟩
  | .hbm, ⟨8, _⟩ => ⟨S4x3x512x512, .f32⟩
  | .hbm, ⟨9, _⟩ => ⟨S4x3x512x512, .f32⟩
  | .hbm, ⟨10, _⟩ => ⟨S4x3x512x512, .f32⟩
  | .hbm, ⟨11, _⟩ => ⟨S4x3x512x512, .f32⟩
  | .hbm, ⟨12, _⟩ => ⟨S4x3x512x512, .f32⟩
  | .hbm, ⟨13, _⟩ => ⟨S4x3x512x512, .f32⟩
  | .hbm, ⟨14, _⟩ => ⟨S4x3x512x512, .f32⟩
  | .hbm, ⟨15, _⟩ => ⟨S4x3x512x512, .f32⟩
  | .hbm, ⟨16, _⟩ => ⟨S4x3x512x512, .f32⟩
  | .hbm, ⟨17, _⟩ => ⟨S4x3x512x512, .f32⟩
  | .hbm, ⟨18, _⟩ => ⟨S4x3x512x512, .f32⟩
  | .hbm, ⟨19, _⟩ => ⟨S4x3x512x512, .f32⟩
  | .hbm, ⟨20, _⟩ => ⟨S4x3x512x512, .f32⟩
  | .hbm, ⟨21, _⟩ => ⟨S4x3x512x512, .f32⟩
  | .hbm, ⟨22, _⟩ => ⟨S4x3x512x512, .f32⟩
  | .hbm, ⟨23, _⟩ => ⟨S4x3x512x512, .f32⟩
  | .hbm, ⟨24, _⟩ => ⟨S4x3x512x512, .f32⟩
  | .hbm, ⟨25, _⟩ => ⟨S4x3x512x512, .f32⟩
  | .hbm, ⟨26, _⟩ => ⟨S4x3x512x512, .f32⟩
  | .hbm, ⟨27, _⟩ => ⟨S4x3x512x512, .f32⟩
  | .hbm, ⟨28, _⟩ => ⟨S4x3x512x512, .f32⟩
  | .hbm, ⟨29, _⟩ => ⟨S4x3x512x512, .f32⟩
  | .hbm, ⟨30, _⟩ => ⟨S4x3x1x512x512, .f32⟩
  | .hbm, ⟨31, _⟩ => ⟨S4x3x1x512x512, .f32⟩
  | .hbm, ⟨32, _⟩ => ⟨S4x3x1x512x512, .f32⟩
  | .hbm, ⟨33, _⟩ => ⟨S4x3x1x512x512, .f32⟩
  | .hbm, ⟨34, _⟩ => ⟨S4x3x1x512x512, .f32⟩
  | .hbm, ⟨35, _⟩ => ⟨S4x3x1x512x512, .f32⟩
  | .hbm, ⟨36, _⟩ => ⟨S4x3x1x512x512, .f32⟩
  | .hbm, ⟨37, _⟩ => ⟨S4x3x1x512x512, .f32⟩
  | .hbm, ⟨38, _⟩ => ⟨S4x3x1x512x512, .f32⟩
  | .hbm, ⟨39, _⟩ => ⟨S4x3x1x512x512, .f32⟩
  | .hbm, ⟨40, _⟩ => ⟨S4x3x1x512x512, .f32⟩
  | .hbm, ⟨41, _⟩ => ⟨S4x3x1x512x512, .f32⟩
  | .hbm, ⟨42, _⟩ => ⟨S4x3x1x512x512, .f32⟩
  | .hbm, ⟨43, _⟩ => ⟨S4x3x1x512x512, .f32⟩
  | .hbm, ⟨44, _⟩ => ⟨S4x3x1x512x512, .f32⟩
  | .hbm, ⟨45, _⟩ => ⟨S4x3x1x512x512, .f32⟩
  | .hbm, ⟨46, _⟩ => ⟨S4x3x1x512x512, .f32⟩
  | .hbm, ⟨47, _⟩ => ⟨S4x3x1x512x512, .f32⟩
  | .hbm, ⟨48, _⟩ => ⟨S4x3x1x512x512, .f32⟩
  | .hbm, ⟨49, _⟩ => ⟨S4x3x1x512x512, .f32⟩
  | .hbm, ⟨50, _⟩ => ⟨S4x3x1x512x512, .f32⟩
  | .hbm, ⟨51, _⟩ => ⟨S4x3x1x512x512, .f32⟩
  | .hbm, ⟨52, _⟩ => ⟨S4x3x1x512x512, .f32⟩
  | .hbm, ⟨53, _⟩ => ⟨S4x3x1x512x512, .f32⟩
  | .hbm, ⟨54, _⟩ => ⟨S4x3x1x512x512, .f32⟩
  | .hbm, ⟨55, _⟩ => ⟨S4x3x16x512x512, .f32⟩
  | .hbm, ⟨56, _⟩ => ⟨S4x3x9x512x512, .f32⟩
  | .hbm, ⟨57, _⟩ => ⟨S4x3x25x512x512, .f32⟩
  | .hbm, ⟨58, _⟩ => ⟨S4x75x512x512, .f32⟩
  | .hbm, ⟨59, _⟩ => ⟨S4x75x512x512, .f32⟩
  | .hbm, ⟨60, _⟩ => ⟨S_, .f32⟩
  | .hbm, ⟨61, _⟩ => ⟨S4x512x512, .f32⟩
  | .hbm, ⟨62, _⟩ => ⟨S4x1x512x512, .f32⟩
  | _, _ => ⟨S4x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_cst : Ref sig .tc := ⟨.hbm, 60, rfl⟩
abbrev main_v56 : Ref sig .tc := ⟨.hbm, 61, rfl⟩
abbrev main_v57 : Ref sig .tc := ⟨.hbm, 62, rfl⟩

abbrev nD : Nat := 1
abbrev τ : Topo := Topo.v7x

variable {F : FTy → Type} [FloatOps F]

class Facts₀ : Prop where
  pads_S4x3x512x512_S4x3x516x516_000_000_220_220 : S4x3x512x512.Pads (![0, 0, 2, 2] : Fin 4 → Nat) ![0, 0, 2, 2] ![0, 0, 0, 0] S4x3x516x516
  h_S_ : 0 < S_.numel
  slices_S4x3x516x516_S4x3x512x512_0_0_0_0 : S4x3x516x516.Slices ![0, 0, 0, 0] S4x3x512x512
  slices_S4x3x516x516_S4x3x512x512_0_0_0_1 : S4x3x516x516.Slices ![0, 0, 0, 1] S4x3x512x512
  slices_S4x3x516x516_S4x3x512x512_0_0_0_2 : S4x3x516x516.Slices ![0, 0, 0, 2] S4x3x512x512
  slices_S4x3x516x516_S4x3x512x512_0_0_0_3 : S4x3x516x516.Slices ![0, 0, 0, 3] S4x3x512x512
  slices_S4x3x516x516_S4x3x512x512_0_0_0_4 : S4x3x516x516.Slices ![0, 0, 0, 4] S4x3x512x512
  slices_S4x3x516x516_S4x3x512x512_0_0_1_0 : S4x3x516x516.Slices ![0, 0, 1, 0] S4x3x512x512
  slices_S4x3x516x516_S4x3x512x512_0_0_1_1 : S4x3x516x516.Slices ![0, 0, 1, 1] S4x3x512x512
  slices_S4x3x516x516_S4x3x512x512_0_0_1_2 : S4x3x516x516.Slices ![0, 0, 1, 2] S4x3x512x512
  slices_S4x3x516x516_S4x3x512x512_0_0_1_3 : S4x3x516x516.Slices ![0, 0, 1, 3] S4x3x512x512
  slices_S4x3x516x516_S4x3x512x512_0_0_1_4 : S4x3x516x516.Slices ![0, 0, 1, 4] S4x3x512x512
  slices_S4x3x516x516_S4x3x512x512_0_0_2_0 : S4x3x516x516.Slices ![0, 0, 2, 0] S4x3x512x512
  slices_S4x3x516x516_S4x3x512x512_0_0_2_1 : S4x3x516x516.Slices ![0, 0, 2, 1] S4x3x512x512
  slices_S4x3x516x516_S4x3x512x512_0_0_2_2 : S4x3x516x516.Slices ![0, 0, 2, 2] S4x3x512x512
  slices_S4x3x516x516_S4x3x512x512_0_0_2_3 : S4x3x516x516.Slices ![0, 0, 2, 3] S4x3x512x512
  slices_S4x3x516x516_S4x3x512x512_0_0_2_4 : S4x3x516x516.Slices ![0, 0, 2, 4] S4x3x512x512
  slices_S4x3x516x516_S4x3x512x512_0_0_3_0 : S4x3x516x516.Slices ![0, 0, 3, 0] S4x3x512x512
  slices_S4x3x516x516_S4x3x512x512_0_0_3_1 : S4x3x516x516.Slices ![0, 0, 3, 1] S4x3x512x512
  slices_S4x3x516x516_S4x3x512x512_0_0_3_2 : S4x3x516x516.Slices ![0, 0, 3, 2] S4x3x512x512
  slices_S4x3x516x516_S4x3x512x512_0_0_3_3 : S4x3x516x516.Slices ![0, 0, 3, 3] S4x3x512x512
  slices_S4x3x516x516_S4x3x512x512_0_0_3_4 : S4x3x516x516.Slices ![0, 0, 3, 4] S4x3x512x512
  slices_S4x3x516x516_S4x3x512x512_0_0_4_0 : S4x3x516x516.Slices ![0, 0, 4, 0] S4x3x512x512
  slices_S4x3x516x516_S4x3x512x512_0_0_4_1 : S4x3x516x516.Slices ![0, 0, 4, 1] S4x3x512x512
  slices_S4x3x516x516_S4x3x512x512_0_0_4_2 : S4x3x516x516.Slices ![0, 0, 4, 2] S4x3x512x512
  slices_S4x3x516x516_S4x3x512x512_0_0_4_3 : S4x3x516x516.Slices ![0, 0, 4, 3] S4x3x512x512
  slices_S4x3x516x516_S4x3x512x512_0_0_4_4 : S4x3x516x516.Slices ![0, 0, 4, 4] S4x3x512x512
  bcast_S4x3x512x512_S4x3x1x512x512_0_1_3_4 : S4x3x512x512.BroadcastsInDim S4x3x1x512x512 (![0, 1, 3, 4] : Fin 4 → Fin S4x3x1x512x512.rank)
  concatenates_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x16x512x512_d2 : Shape.Concatenates [S4x3x1x512x512, S4x3x1x512x512, S4x3x1x512x512, S4x3x1x512x512, S4x3x1x512x512, S4x3x1x512x512, S4x3x1x512x512, S4x3x1x512x512, S4x3x1x512x512, S4x3x1x512x512, S4x3x1x512x512, S4x3x1x512x512, S4x3x1x512x512, S4x3x1x512x512, S4x3x1x512x512, S4x3x1x512x512] S4x3x16x512x512 2
  concatenates_S4x3x1x512x512_S4x3x1x512x512_S4x3x1x512x512_S4x3x1x512x512_S4x3x1x512x512_S4x3x1x512x512_S4x3x1x512x512_S4x3x1x512x512_S4x3x1x512x512_S4x3x9x512x512_d2 : Shape.Concatenates [S4x3x1x512x512, S4x3x1x512x512, S4x3x1x512x512, S4x3x1x512x512, S4x3x1x512x512, S4x3x1x512x512, S4x3x1x512x512, S4x3x1x512x512, S4x3x1x512x512] S4x3x9x512x512 2
  concatenates_S4x3x16x512x512_S4x3x9x512x512_S4x3x25x512x512_d2 : Shape.Concatenates [S4x3x16x512x512, S4x3x9x512x512] S4x3x25x512x512 2
  shapeCasts_S4x3x25x512x512_S4x75x512x512 : S4x3x25x512x512.ShapeCasts S4x75x512x512
  reducesTo_S4x75x512x512_S4x512x512_d1 : S4x75x512x512.ReducesTo [1] S4x512x512
  bcast_S4x512x512_S4x1x512x512_0_2_3 : S4x512x512.BroadcastsInDim S4x1x512x512 (![0, 2, 3] : Fin 3 → Fin S4x1x512x512.rank)

variable [Facts₀]

class Facts : Prop extends Facts₀ where

variable [Facts]
-- ==== Proof.BodyBits.lean ====
/-
  The body of the per-pixel filtering kernel, run once at a symbolic grid point.

  At grid point (b, h) the body is handed three staging buffers: the whole padded image of batch entry b
  (3 channels, 520 rows, 640 columns), the filter block of 75 taps over the 64 rows of tile h, and the output block of
  those 64 rows. For each channel it loads the 72 rows starting at row 64·h of that channel's padded plane, for each of
  the 75 taps it loads that tap's 64×512 filter plane, multiplies the correspondingly shifted 64×512 window of the
  loaded rows by it and adds the product to a running sum that starts at zero; the final sum is stored through the whole
  output block. Nothing else is written: the two input buffers are only read.

  This module runs the body symbolically and NAMES what it leaves: the value stored into the output block as a
  function of the two input blocks and the grid point (`storedBlock`). From it come the proof data of the software
  pipeline around the body (each input buffer holds its block, the output buffer the stored block), the pipeline's
  obligation at every grid point, and the run of the whole program: it terminates without a fault, leaves both argument
  arrays as it found them, and leaves in the result array what the pipeline writes back from the stored blocks.
-/
import proofs.«131794_j68891275428414_2_alg».proof.Proof.Gen.Kernel.Skeleton
import proofs.«131794_j68891275428414_2_alg».proof.Proof.Gen.Kernel.Frame
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of the one store: the origin of the output block. -/
theorem origin4 : (![0, 0, 0, 0] : Fin 4 → Nat) = fun _ => 0 := funext fun a => by fin_cases a <;> rfl

/-! ## The body, run -/

set_option maxHeartbeats 4000000 in
/-- The value the body stores into the output block, as a function of the grid point and of what the two input
    buffers read (`x0`: the padded image of the batch entry, `x1`: the 75 filter planes of the tile), TOGETHER WITH
    the proof that the body, started with the input buffers at those contents and the output buffer at anything, runs
    to its end without a fault, leaving the inputs as they were and the output buffer at that value. The value is found
    by running the body: its one store goes through the whole output block, so what the buffer then reads is the
    store's payload. -/
noncomputable def bodyRun (c : Dev nD) (i : grid0.Coords)
    (arg2 : Memref sig .tc .vmem S1x3x520x640 .f32) (harg2 : arg2.IsWhole)
    (arg3 : Memref sig .tc .vmem S1x75x64x512 .f32) (harg3 : arg3.IsWhole)
    (arg4 : Memref sig .tc .vmem S1x1x64x512 .f32) (harg4 : arg4.IsWhole)
    (x0 : Vec F S1x3x520x640 .f32) (x1 : Vec F S1x75x64x512 .f32) :
    { p : Vec F S1x1x64x512 .f32 //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ owns (c : Thread nD τ) arg4 fullShare p) -∗ K ⟨⟩))
          ⊢ wp frame (wpE (defs₀ (F := F)) Variants.none c none) E (cc0__dynfilter_kernel i arg2 harg2 arg3 harg3 arg4 harg4) K } := by
  refine ⟨?_, fun E K => ?run⟩
  case run =>
    simp only [cc0__dynfilter_kernel_eq_skeleton]; unfold cc0__dynfilter_kernel_skel
    unfold owns
    iintro ⟨⟨%f0, %hf0, H0⟩, ⟨%f1, %hf1, H1⟩, ⟨%d2, %f2, -, H2⟩, Hk⟩
    obtain rfl := harg2.eq_unread hf0
    obtain rfl := harg3.eq_unread hf1
    sl_exec_parts
    sl_step
    iapply Hk
    isplitl [H0]
    · iexists _; isplitr; · ipureintro; exact harg2.read_unread _
      iexact H0
    isplitl [H1]
    · iexists _; isplitr; · ipureintro; exact harg3.read_unread _
      iexact H1
    iexists _; isplitr
    swap; · iexact H2
    ipureintro
    rw [View.read_writes_eq_canon _ _ _ (fun y => ⟨_, List.mem_singleton_self _,
      View.mem_set_unit_zero (S := S1x1x64x512) origin4 inb_S1x1x64x512_S1x1x64x512_0_0_0_0 y⟩),
      View.canon_unit_zero (S := S1x1x64x512) origin4 inb_S1x1x64x512_S1x1x64x512_0_0_0_0]

/-! ## The pipeline's proof data -/

/-- What the body stores into the output block at grid point `t`: `bodyRun`'s value at the point's coordinates, on the
    staging buffers current at that point, the inputs holding their blocks of the arrays as the region finds them. -/
def storedBlock (c : Dev nD) (t : Fin cfg0.N) : Vec F S1x1x64x512 .f32 :=
  (bodyRun c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2)) (iblk m c 0 t) (iblk m c 1 t)).1

/-- The proof data of the pipeline on core `c`: the arrays as the region finds them; after the body at point `t` each
    input buffer still at its block and the output buffer at the stored block; the invariant is the part of memory the
    body never touches; nothing is owed, every share is whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => storedBlock m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) : (dats m 0 c).after 2 t = storedBlock m c t := by dsimp only [dats]

/-- Each input buffer holds its block when the body starts, whether or not the pipeline fetched it at this point: the
    body leaves it in place, and an unfetched block is the one already there. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d

/-! ## The pipeline's obligation at a grid point -/

/-- What the body is handed at point `t`: the untouched part of memory, the core's debts (none), and the three current
    staging buffers, the inputs' at their blocks and the output's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it hands back: the same, the output buffer now at the stored block. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).Φ t.succ = (dats m 0 c).Φ t.castSucc from rfl,
    show (dats m 0 c).owesAt () t.succ = (dats m 0 c).owesAt () t.castSucc from rfl,
    after_in0, after_in1, after_out]
  unfold storedBlock
  iintro ⟨HΦ, Ho, ⟨%d0, H0⟩, ⟨%d1, H1⟩, ⟨%d2, H2⟩⟩
  iapply ((bodyRun c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run of the whole program -/

set_option backward.isDefEq.respectTransparency.types false in
/-- From any memory with zero counters every weakly fair execution of the program terminates without a fault, and in
    every final state each array the pipeline stages holds what the pipeline computes from the proof data, every other
    array what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program terminates without a fault and leaves both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.BodyIdeal.lean ====
/-
  The body of the per-pixel filtering kernel, run once at a symbolic grid point.

  At grid point (b, h) the body is handed three staging buffers: the whole padded image of batch entry b
  (3 channels, 520 rows, 640 columns), the filter block of 75 taps over the 64 rows of tile h, and the output block of
  those 64 rows. For each channel it loads the 72 rows starting at row 64·h of that channel's padded plane, for each of
  the 75 taps it loads that tap's 64×512 filter plane, multiplies the correspondingly shifted 64×512 window of the
  loaded rows by it and adds the product to a running sum that starts at zero; the final sum is stored through the whole
  output block. Nothing else is written: the two input buffers are only read.

  This module runs the body symbolically and NAMES what it leaves: the value stored into the output block as a
  function of the two input blocks and the grid point (`storedBlock`). From it come the proof data of the software
  pipeline around the body (each input buffer holds its block, the output buffer the stored block), the pipeline's
  obligation at every grid point, and the run of the whole program: it terminates without a fault, leaves both argument
  arrays as it found them, and leaves in the result array what the pipeline writes back from the stored blocks.
-/
import proofs.«131794_j68891275428414_2_alg».proof.Proof.Gen.KernelIdeal.Skeleton
import proofs.«131794_j68891275428414_2_alg».proof.Proof.Gen.KernelIdeal.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of the one store: the origin of the output block. -/
theorem origin4 : (![0, 0, 0, 0] : Fin 4 → Nat) = fun _ => 0 := funext fun a => by fin_cases a <;> rfl

/-! ## The body, run -/

set_option maxHeartbeats 4000000 in
/-- The value the body stores into the output block, as a function of the grid point and of what the two input
    buffers read (`x0`: the padded image of the batch entry, `x1`: the 75 filter planes of the tile), TOGETHER WITH
    the proof that the body, started with the input buffers at those contents and the output buffer at anything, runs
    to its end without a fault, leaving the inputs as they were and the output buffer at that value. The value is found
    by running the body: its one store goes through the whole output block, so what the buffer then reads is the
    store's payload. -/
noncomputable def bodyRun (c : Dev nD) (i : grid0.Coords)
    (arg2 : Memref sig .tc .vmem S1x3x520x640 .f32) (harg2 : arg2.IsWhole)
    (arg3 : Memref sig .tc .vmem S1x75x64x512 .f32) (harg3 : arg3.IsWhole)
    (arg4 : Memref sig .tc .vmem S1x1x64x512 .f32) (harg4 : arg4.IsWhole)
    (x0 : Vec F S1x3x520x640 .f32) (x1 : Vec F S1x75x64x512 .f32) :
    { p : Vec F S1x1x64x512 .f32 //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ owns (c : Thread nD τ) arg4 fullShare p) -∗ K ⟨⟩))
          ⊢ wp frame (wpE (defs₀ (F := F)) Variants.none c none) E (cc0__dynfilter_kernel i arg2 harg2 arg3 harg3 arg4 harg4) K } := by
  refine ⟨?_, fun E K => ?run⟩
  case run =>
    simp only [cc0__dynfilter_kernel_eq_skeleton]; unfold cc0__dynfilter_kernel_skel
    unfold owns
    iintro ⟨⟨%f0, %hf0, H0⟩, ⟨%f1, %hf1, H1⟩, ⟨%d2, %f2, -, H2⟩, Hk⟩
    obtain rfl := harg2.eq_unread hf0
    obtain rfl := harg3.eq_unread hf1
    sl_exec_parts
    sl_step
    iapply Hk
    isplitl [H0]
    · iexists _; isplitr; · ipureintro; exact harg2.read_unread _
      iexact H0
    isplitl [H1]
    · iexists _; isplitr; · ipureintro; exact harg3.read_unread _
      iexact H1
    iexists _; isplitr
    swap; · iexact H2
    ipureintro
    rw [View.read_writes_eq_canon _ _ _ (fun y => ⟨_, List.mem_singleton_self _,
      View.mem_set_unit_zero (S := S1x1x64x512) origin4 inb_S1x1x64x512_S1x1x64x512_0_0_0_0 y⟩),
      View.canon_unit_zero (S := S1x1x64x512) origin4 inb_S1x1x64x512_S1x1x64x512_0_0_0_0]

/-! ## The pipeline's proof data -/

/-- What the body stores into the output block at grid point `t`: `bodyRun`'s value at the point's coordinates, on the
    staging buffers current at that point, the inputs holding their blocks of the arrays as the region finds them. -/
def storedBlock (c : Dev nD) (t : Fin cfg0.N) : Vec F S1x1x64x512 .f32 :=
  (bodyRun c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2)) (iblk m c 0 t) (iblk m c 1 t)).1

/-- The proof data of the pipeline on core `c`: the arrays as the region finds them; after the body at point `t` each
    input buffer still at its block and the output buffer at the stored block; the invariant is the part of memory the
    body never touches; nothing is owed, every share is whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => storedBlock m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) : (dats m 0 c).after 2 t = storedBlock m c t := by dsimp only [dats]

/-- Each input buffer holds its block when the body starts, whether or not the pipeline fetched it at this point: the
    body leaves it in place, and an unfetched block is the one already there. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d

/-! ## The pipeline's obligation at a grid point -/

/-- What the body is handed at point `t`: the untouched part of memory, the core's debts (none), and the three current
    staging buffers, the inputs' at their blocks and the output's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it hands back: the same, the output buffer now at the stored block. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).Φ t.succ = (dats m 0 c).Φ t.castSucc from rfl,
    show (dats m 0 c).owesAt () t.succ = (dats m 0 c).owesAt () t.castSucc from rfl,
    after_in0, after_in1, after_out]
  unfold storedBlock
  iintro ⟨HΦ, Ho, ⟨%d0, H0⟩, ⟨%d1, H1⟩, ⟨%d2, H2⟩⟩
  iapply ((bodyRun c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run of the whole program -/

set_option backward.isDefEq.respectTransparency.types false in
/-- From any memory with zero counters every weakly fair execution of the program terminates without a fault, and in
    every final state each array the pipeline stages holds what the pipeline computes from the proof data, every other
    array what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program terminates without a fault and leaves both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Spec.lean ====
/-
  Per-pixel filtering, stated once over natural-number coordinates.

  The result at pixel (b, y, w) is the sum over the 75 taps k = 25·c + 5·i + j (channel c, row shift i, column shift j)
  of the image, padded by two zeros on each side, at (b, c, y + i, w + j), times the filter's tap k at the pixel:

      out(b, y, w) = z₀ + Σ_{k < 75} padded(b, k / 25, y + (k mod 25) / 5, w + k mod 5) · filter(b, k, y, w).

  The kernel adds the 75 products one after the other to a running value that starts at z₀; the reference sums them at
  once. Addition of extended reals is associative, so the two agree term for term: no law that needs finite operands is
  used. This module holds the pieces both sides share: arrays read at natural coordinates, the running sum as a sum, the
  padded image, and the result function.
-/
import Idealize.ShloMosaic.PureOps.Ideal
import Idealize.ShloMosaic.Lib.ValueIdx
import Idealize.ShloMosaic.Lib.KernelVsHost
import Mathlib.Algebra.BigOperators.Fin

noncomputable section

namespace Cert.DynFilter

open Idealize.ShloMosaic Idealize.ShloMosaic.ValueIdx
open scoped BigOperators

variable {α : Type}

/-! ## An array read at natural coordinates -/

/-- A function on the box n0 × n1 × n2 × n3 read at natural coordinates; `z` outside the box. -/
def nat4 {n0 n1 n2 n3 : ℕ} (z : α) (x : (⟨4, ![n0, n1, n2, n3]⟩ : Shape).Idx → α) (a b c d : ℕ) : α :=
  if h : a < n0 ∧ b < n1 ∧ c < n2 ∧ d < n3 then x (ix4 ⟨a, h.1⟩ ⟨b, h.2.1⟩ ⟨c, h.2.2.1⟩ ⟨d, h.2.2.2⟩) else z

theorem nat4_of_lt {n0 n1 n2 n3 : ℕ} (z : α) (x : (⟨4, ![n0, n1, n2, n3]⟩ : Shape).Idx → α) {a b c d : ℕ}
    (ha : a < n0) (hb : b < n1) (hc : c < n2) (hd : d < n3) :
    nat4 z x a b c d = x (ix4 ⟨a, ha⟩ ⟨b, hb⟩ ⟨c, hc⟩ ⟨d, hd⟩) := dif_pos ⟨ha, hb, hc, hd⟩

/-- At an index of the box it is the function there. -/
theorem nat4_val {n0 n1 n2 n3 : ℕ} (z : α) (x : (⟨4, ![n0, n1, n2, n3]⟩ : Shape).Idx → α)
    (j : (⟨4, ![n0, n1, n2, n3]⟩ : Shape).Idx) : nat4 z x (j 0).val (j 1).val (j 2).val (j 3).val = x j := by
  rw [nat4_of_lt z x (j 0).isLt (j 1).isLt (j 2).isLt (j 3).isLt]
  exact congrArg x (eq_ix4 j).symm

/-! ## A running sum is a sum -/

/-- Start from `z`, add `g 0`, then `g 1`, … : the value after `n` additions. -/
def accum {M : Type*} [Add M] (z : M) (g : ℕ → M) : ℕ → M
  | 0 => z
  | n + 1 => accum z g n + g n

/-- After `n` additions the running value is `z` plus the sum of the first `n` terms (associativity only). -/
theorem accum_eq_sum {M : Type*} [AddCommMonoid M] (z : M) (g : ℕ → M) (n : ℕ) :
    accum z g n = z + ∑ k : Fin n, g k.val := by
  induction n with
  | zero => simp [accum]
  | succ n ih => rw [accum, ih, Fin.sum_univ_castSucc, add_assoc]; rfl

/-! ## The result -/

/-- The filtered image at pixel (b, y, w), from the padded image `XP` and the filter `FL` at natural coordinates. -/
def filtered (z0 : EReal) (XP FL : ℕ → ℕ → ℕ → ℕ → EReal) (b y w : ℕ) : EReal :=
  z0 + ∑ k : Fin 75, XP b (k.val / 25) (y + k.val % 25 / 5) (w + k.val % 5) * FL b k.val y w

/-- The term of tap `k`. -/
def tap (XP FL : ℕ → ℕ → ℕ → ℕ → EReal) (b y w : ℕ) (k : ℕ) : EReal :=
  XP b (k / 25) (y + k % 25 / 5) (w + k % 5) * FL b k y w

theorem filtered_eq_accum (z0 : EReal) (XP FL : ℕ → ℕ → ℕ → ℕ → EReal) (b y w : ℕ) :
    filtered z0 XP FL b y w = accum z0 (tap XP FL b y w) 75 := by
  rw [accum_eq_sum]; rfl

/-- Two padded images that agree on the 516 × 516 rows and columns the taps reach give the same result. -/
theorem filtered_congr (z0 : EReal) (XP XP' FL : ℕ → ℕ → ℕ → ℕ → EReal) (b y w : ℕ) (hy : y < 512) (hw : w < 512)
    (h : ∀ c Y X, c < 3 → Y < 516 → X < 516 → XP b c Y X = XP' b c Y X) :
    filtered z0 XP FL b y w = filtered z0 XP' FL b y w := by
  unfold filtered
  refine congrArg (z0 + ·) (Finset.sum_congr rfl fun k _ => ?_)
  have hk : k.val < 75 := k.isLt
  rw [h (k.val / 25) _ _ (by omega) (by omega) (by omega)]

/-! ## The padded image -/

/-- The image with two rows and two columns of `zp` in front and `zp` everywhere behind: at natural coordinates. -/
def padded (zp : EReal) (x : (⟨4, ![4, 3, 512, 512]⟩ : Shape).Idx → EReal) (b c Y X : ℕ) : EReal :=
  if 2 ≤ Y ∧ Y < 514 ∧ 2 ≤ X ∧ X < 514 then nat4 zp x b c (Y - 2) (X - 2) else zp

/-- A `pad` by (0, 0, 2, 2) in front, anything behind and nothing between reads as the padded image. -/
theorem pad_eq_padded {H W : ℕ} (hi : Fin 4 → ℕ) (x : (⟨4, ![4, 3, 512, 512]⟩ : Shape).Idx → EReal)
    {u : Shape} (v : u.Idx → EReal)
    (h : (⟨4, ![4, 3, 512, 512]⟩ : Shape).Pads ![0, 0, 2, 2] hi ![0, 0, 0, 0] (⟨4, ![4, 3, H, W]⟩ : Shape))
    (hu : 0 < u.numel) (j : (⟨4, ![4, 3, H, W]⟩ : Shape).Idx) :
    pad (⟨4, ![4, 3, H, W]⟩ : Shape) ![0, 0, 2, 2] hi ![0, 0, 0, 0] x v h hu j
      = padded (v (Shape.Idx.first hu)) x (j 0).val (j 1).val (j 2).val (j 3).val := by
  unfold padded
  by_cases hin : 2 ≤ (j 2).val ∧ (j 2).val < 514 ∧ 2 ≤ (j 3).val ∧ (j 3).val < 514
  · rw [if_pos hin, nat4_of_lt _ x (j 0).isLt (j 1).isLt (by omega : (j 2).val - 2 < 512) (by omega : (j 3).val - 2 < 512)]
    refine pad_apply_of_inside _ _ _ x v h hu j _ (fun a => ?_)
    fin_cases a
    · show (j 0).val = 0 + (j 0).val * (0 + 1); omega
    · show (j 1).val = 0 + (j 1).val * (0 + 1); omega
    · show (j 2).val = 2 + ((j 2).val - 2) * (0 + 1); omega
    · show (j 3).val = 2 + ((j 3).val - 2) * (0 + 1); omega
  · rw [if_neg hin]
    by_cases h2 : 2 ≤ (j 2).val ∧ (j 2).val < 514
    · refine pad_apply_of_not_inside _ _ _ x v h hu j 3 (fun hc => hin ⟨h2.1, h2.2, ?_, ?_⟩)
      · have := hc.1; show 2 ≤ (j 3).val; exact this
      · have := hc.2.2; show (j 3).val < 514
        have e : ((j 3).val - 2) / (0 + 1) < 512 := this
        rw [Nat.div_one] at e; omega
    · refine pad_apply_of_not_inside _ _ _ x v h hu j 2 (fun hc => h2 ⟨?_, ?_⟩)
      · have := hc.1; show 2 ≤ (j 2).val; exact this
      · have := hc.2.2; show (j 2).val < 514
        have e : ((j 2).val - 2) / (0 + 1) < 512 := this
        rw [Nat.div_one] at e; omega

end Cert.DynFilter

end
-- ==== Proof.KernelTerm.lean ====
/-
  What the body stores, index by index.

  The three windows the body loads are rows 64·h … 64·h + 71 of the three channel planes of the padded image block;
  the 75 planes it loads from the filter block are the block's taps. Each product the body forms is, at row r and
  column w of the output tile, the window entry at (i + r, j + w) times the tap's entry at (r, w); the running sum
  starts at the zero word. So the stored block at (r, w) is the running sum of the 75 tap terms, which is the zero word
  plus their sum.
-/
import proofs.«131794_j68891275428414_2_alg».proof.Proof.BodyIdeal
import proofs.«131794_j68891275428414_2_alg».proof.Proof.Spec
import Idealize.ShloMosaic.Lib.ValueLayout

set_option maxRecDepth 16384

noncomputable section

namespace Cert.KernelIdeal.Hand

open Cert.KernelIdeal Cert.KernelIdeal.Gen Cert.DynFilter
open Idealize.ShloMosaic Idealize.ShloMosaic.TcCoe Idealize.ShloMosaic.ValueIdx
open Idealize.SL.Sem

/-! ## The loads, read at an index -/

/-- The window of channel `cc`: 72 rows of that channel's plane of the image block, from row `k0_off1 i 0` on. -/
theorem window_at (i : grid0.Coords) (arg2 : Memref sig .tc .vmem S1x3x520x640 .f32) (harg2 : arg2.IsWhole)
    (x0 : Vec Ideal S1x3x520x640 .f32) (cc : ℕ)
    (hR : ∀ a, (![0, cc, 0, 0] : Fin 4 → ℕ) a + S1x1x520x640.size a ≤ S1x3x520x640.size a)
    (hin : ∀ a, k0_off1 i a + S72x640.size a ≤ S520x640.size a) (R : Fin 72) (W : Fin 640) :
    View.readAt (Elt Ideal)
        ((arg2.slice (Rect.unit (s := S1x3x520x640) ![0, cc, 0, 0] S1x1x520x640.size hR) (fun _ => rfl)).squeeze S520x640
          squeezes_S1x1x520x640_S520x640).view
        (Rect.unit (s := S520x640) (k0_off1 i) S72x640.size hin).toLoadRect (harg2.unread x0) (ix2 R W)
      = nat4 0 x0 0 cc (k0_off1 i 0 + R.val) W.val := by
  have hc : cc < 3 := by have := hR 1; show cc < 3; have e : cc + 1 ≤ 3 := this; omega
  have hr : k0_off1 i 0 + R.val < 520 := by have e : k0_off1 i 0 + 72 ≤ 520 := hin 0; have := R.isLt; omega
  rw [nat4_of_lt 0 x0 (by decide : 0 < 1) hc hr W.isLt]
  have e2 : (Rect.unit (s := S520x640) (k0_off1 i) S72x640.size hin).toLoadRect.idx (ix2 R W)
      = ix2 (⟨k0_off1 i 0 + R.val, hr⟩ : Fin 520) (⟨W.val, W.isLt⟩ : Fin 640) := by
    funext a; apply Fin.ext
    match a with
    | ⟨0, _⟩ => show k0_off1 i 0 + 1 * R.val = k0_off1 i 0 + R.val; omega
    | ⟨1, _⟩ => show 0 + 1 * W.val = W.val; omega
  rw [View.readAt_apply, e2]
  show arg2.view.read (Elt Ideal) (harg2.unread x0)
      ((Rect.unit (s := S1x3x520x640) ![0, cc, 0, 0] S1x1x520x640.size hR).emb
        (Shape.reshapeEquiv squeezes_S1x1x520x640_S520x640.numel_eq (ix2 (⟨k0_off1 i 0 + R.val, hr⟩ : Fin 520) (⟨W.val, W.isLt⟩ : Fin 640)))) = _
  rw [harg2.read_unread, reshapeEquiv_ix2_11ab]
  refine congrArg x0 (funext fun a => Fin.ext ?_)
  match a with
  | ⟨0, _⟩ => show 0 + 1 * 0 = 0; rfl
  | ⟨1, _⟩ => show cc + 1 * 0 = cc; omega
  | ⟨2, _⟩ => show 0 + 1 * (k0_off1 i 0 + R.val) = k0_off1 i 0 + R.val; omega
  | ⟨3, _⟩ => show 0 + 1 * W.val = W.val; omega

/-- Tap `kk`'s plane of the filter block, as a 64 × 512 matrix. -/
theorem plane_at (arg3 : Memref sig .tc .vmem S1x75x64x512 .f32) (harg3 : arg3.IsWhole)
    (x1 : Vec Ideal S1x75x64x512 .f32) (kk : ℕ)
    (hk : ∀ a, (![0, kk, 0, 0] : Fin 4 → ℕ) a + S1x1x64x512.size a ≤ S1x75x64x512.size a)
    (hc : S1x1x64x512.ShapeCasts S64x512) (r : Fin 64) (w : Fin 512) :
    shapeCast (s := S1x1x64x512) (α := Ideal .f32) S64x512 (View.readAt (Elt Ideal) arg3.view
        (Rect.unit (s := S1x75x64x512) ![0, kk, 0, 0] S1x1x64x512.size hk).toLoadRect (harg3.unread x1)) hc (ix2 r w)
      = nat4 0 x1 0 kk r.val w.val := by
  have hkk : kk < 75 := by have e : kk + 1 ≤ 75 := hk 1; omega
  rw [nat4_of_lt 0 x1 (by decide : 0 < 1) hkk r.isLt w.isLt]
  unfold shapeCast
  rw [reshapeEquiv_ix2_11ab, View.readAt_apply, harg3.read_unread]
  refine congrArg x1 (funext fun a => Fin.ext ?_)
  match a with
  | ⟨0, _⟩ => show 0 + 1 * 0 = 0; rfl
  | ⟨1, _⟩ => show kk + 1 * 0 = kk; omega
  | ⟨2, _⟩ => show 0 + 1 * r.val = r.val; omega
  | ⟨3, _⟩ => show 0 + 1 * w.val = w.val; omega

/-- The 64 × 512 sum recast as the 1 × 1 × 64 × 512 output block, at (0, 0, r, w). -/
theorem block_at (v : FVec Ideal S64x512 .f32) (h : S64x512.ShapeCasts S1x1x64x512) (r : Fin 64) (w : Fin 512) :
    shapeCast S1x1x64x512 v h (ix4 (⟨0, Nat.one_pos⟩ : Fin 1) (⟨0, Nat.one_pos⟩ : Fin 1) r w) = v (ix2 r w) :=
  shapeCast_apply v h _ _ (by
    rw [Shape.rowMajor_val_two, Shape.rowMajor_val_four]
    show r.val * 512 + w.val = ((0 * 1 + 0) * 64 + r.val) * 512 + w.val
    omega)

/-! ## One tap's product -/

/-- The product the body forms for channel `cc`, row shift `ii`, column shift `jj` and tap `kk`, at row `r` and column
    `w` of the tile: the window's entry at (ii + r, jj + w) times the tap's at (r, w). -/
theorem tap_at (i : grid0.Coords) (arg2 : Memref sig .tc .vmem S1x3x520x640 .f32) (harg2 : arg2.IsWhole)
    (x0 : Vec Ideal S1x3x520x640 .f32) (cc : ℕ)
    (hR : ∀ a, (![0, cc, 0, 0] : Fin 4 → ℕ) a + S1x1x520x640.size a ≤ S1x3x520x640.size a)
    (hin : ∀ a, k0_off1 i a + S72x640.size a ≤ S520x640.size a)
    (arg3 : Memref sig .tc .vmem S1x75x64x512 .f32) (harg3 : arg3.IsWhole)
    (x1 : Vec Ideal S1x75x64x512 .f32) (kk : ℕ)
    (hk : ∀ a, (![0, kk, 0, 0] : Fin 4 → ℕ) a + S1x1x64x512.size a ≤ S1x75x64x512.size a)
    (hc : S1x1x64x512.ShapeCasts S64x512) (ii jj : ℕ) (hsl : S72x640.Slices ![ii, jj] S64x512)
    (hsc : S72x640.ShapeCasts S72x640) (r : Fin 64) (w : Fin 512) :
    mulf (F := Ideal) (s := S64x512) (φ := .f32)
        (extractStridedSlice (s := S72x640) (α := Ideal .f32) S64x512 ![ii, jj]
          (shapeCast (s := S72x640) (α := Ideal .f32) S72x640 (View.readAt (Elt Ideal)
            ((arg2.slice (Rect.unit (s := S1x3x520x640) ![0, cc, 0, 0] S1x1x520x640.size hR) (fun _ => rfl)).squeeze S520x640
              squeezes_S1x1x520x640_S520x640).view
            (Rect.unit (s := S520x640) (k0_off1 i) S72x640.size hin).toLoadRect (harg2.unread x0)) hsc) hsl)
        (shapeCast (s := S1x1x64x512) (α := Ideal .f32) S64x512 (View.readAt (Elt Ideal) arg3.view
          (Rect.unit (s := S1x75x64x512) ![0, kk, 0, 0] S1x1x64x512.size hk).toLoadRect (harg3.unread x1)) hc) (ix2 r w)
      = nat4 0 x0 0 cc (k0_off1 i 0 + (r.val + ii)) (w.val + jj) * nat4 0 x1 0 kk r.val w.val := by
  have h0 : ii + r.val < 72 := by have e : ii + 64 ≤ 72 := hsl.2 0; have := r.isLt; omega
  have h1 : jj + w.val < 640 := by have e : jj + 512 ≤ 640 := hsl.2 1; have := w.isLt; omega
  rw [mulf_apply, plane_at, shapeCast_self,
    extractStridedSlice_apply ![ii, jj] _ hsl (ix2 r w) (ix2 (⟨ii + r.val, h0⟩ : Fin 72) (⟨jj + w.val, h1⟩ : Fin 640))
      (fun a => by match a with | ⟨0, _⟩ => rfl | ⟨1, _⟩ => rfl),
    window_at]
  show nat4 0 x0 0 cc (k0_off1 i 0 + (ii + r.val)) (jj + w.val) * _ = _
  rw [Nat.add_comm ii r.val, Nat.add_comm jj w.val]

end Cert.KernelIdeal.Hand

end
-- ==== Proof.KernelBlock.lean ====
/-
  The stored block, index by index: the running sum of the 75 tap terms.
-/
import proofs.«131794_j68891275428414_2_alg».proof.Proof.KernelTerm

set_option maxRecDepth 16384

noncomputable section

namespace Cert.KernelIdeal.Hand

open Cert.KernelIdeal Cert.KernelIdeal.Gen Cert.DynFilter
open Idealize.ShloMosaic Idealize.ShloMosaic.TcCoe Idealize.ShloMosaic.ValueIdx
open Idealize.SL.Sem

set_option maxHeartbeats 1000000 in
/-- The stored block at (0, 0, r, w): the zero word, then the 75 tap terms added one after the other — channel
    k / 25, row shift (k mod 25) / 5, column shift k mod 5 for tap k, in the order the body forms them. -/
theorem stored_at (c : Dev nD) (i : grid0.Coords)
    (arg2 : Memref sig .tc .vmem S1x3x520x640 .f32) (harg2 : arg2.IsWhole)
    (arg3 : Memref sig .tc .vmem S1x75x64x512 .f32) (harg3 : arg3.IsWhole)
    (arg4 : Memref sig .tc .vmem S1x1x64x512 .f32) (harg4 : arg4.IsWhole)
    (x0 : Vec Ideal S1x3x520x640 .f32) (x1 : Vec Ideal S1x75x64x512 .f32) (r : Fin 64) (w : Fin 512) :
    (bodyRun (F := Ideal) c i arg2 harg2 arg3 harg3 arg4 harg4 x0 x1).1
        (ix4 (⟨0, Nat.one_pos⟩ : Fin 1) (⟨0, Nat.one_pos⟩ : Fin 1) r w)
      = accum (Ideal.ofBits .f32 0x00000000#32)
          (tap (fun b cc Y X => nat4 0 x0 b cc (k0_off1 i 0 + Y) X) (nat4 0 x1) 0 r.val w.val) 75 := by
  unfold bodyRun
  dsimp only
  simp only [bodyRun.sl.r, bodyRun.sl.r_1, bodyRun.sl.r_2, bodyRun.sl.r_3, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.v6, bodyRun.sl.v136, bodyRun.sl.v266, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  rw [block_at]
  simp only [addf_apply]
  simp only [accum]
  iterate 75 (refine congrArg₂ (· + ·) ?_ (tap_at ..))
  rfl

end Cert.KernelIdeal.Hand

end
-- ==== Proof.KernelFinal.lean ====
/-
  From the stored blocks to the whole result array.

  Grid point (b, h) stages the padded image of batch entry b, the filter's 64-row tile h of that entry, and writes back
  the 64-row tile h of the result's entry b. The rows its body loads start at row 64·h, so the stored block at (r, w) is
  the filtered image at pixel (b, 64·h + r, w): every grid point writes its block of ONE function of the two argument
  arrays, and the 4 × 8 blocks tile the result. Hence the result array after the run is that function.
-/
import proofs.«131794_j68891275428414_2_alg».proof.Proof.BodyIdeal
import proofs.«131794_j68891275428414_2_alg».proof.Proof.KernelBlock
import Idealize.ShloMosaic.Lib.StableHlo.Run
import Idealize.ShloMosaic.Lib.Pipeline.Value

set_option maxRecDepth 16384

noncomputable section

namespace Cert.KernelIdeal.Hand

open Cert.KernelIdeal Cert.KernelIdeal.Gen Cert.DynFilter
open Idealize.ShloMosaic Idealize.ShloMosaic.TcCoe Idealize.ShloMosaic.ValueIdx Idealize.ShloMosaic.StableHlo
open Idealize.SL.Sem
open Idealize.ShloMosaic.Pipeline (Dat)
open scoped BigOperators

variable (m : (ℓ : Loc nD τ sig) → Buf (Elt Ideal) ℓ) (ρ : Dev nD → PrngReg)

/-- The two argument arrays on core `c`, under their literal shapes. -/
abbrev imgArr (c : Dev nD) : (⟨4, ![4, 3, 512, 512]⟩ : Shape).Idx → EReal := m ((c : Thread nD τ).loc main_arg0)
abbrev filArr (c : Dev nD) : (⟨4, ![4, 75, 512, 512]⟩ : Shape).Idx → EReal := m ((c : Thread nD τ).loc main_arg1)

/-- The value the program pads the image with: the integer zero converted to a float. -/
abbrev zpad : EReal := (sitofp (F := Ideal) .f32 (constantI S_ 32 0#32) : FVec Ideal S_ .f32) (Shape.Idx.first h_S_)

/-! ## The arrays the region finds -/

/-- The array the first window stages is the image padded by two in front (and by more behind), at natural coordinates. -/
theorem entry_img (c : Dev nD) (j : S4x3x520x640.Idx) :
    (V m c main_v0 : S4x3x520x640.Idx → EReal) j
      = padded zpad (imgArr m c) (j 0).val (j 1).val (j 2).val (j 3).val := by
  have e : (V m c main_v0 : S4x3x520x640.Idx → EReal)
      = pad S4x3x520x640 ![0, 0, 2, 2] ![0, 0, 6, 126] ![0, 0, 0, 0] (m ((c : Thread nD τ).loc main_arg0))
          (sitofp (F := Ideal) .f32 (constantI S_ 32 0#32)) pads_S4x3x512x512_S4x3x520x640_000_000_260_21260 h_S_ := by
    dsimp only [Gen.V]
    simp only [Gen.hostOps0, Gen.hostOps0_1, List.flatten_cons, List.flatten_nil, List.append_nil, List.cons_append,
      List.nil_append]
    after_results; rfl
  rw [e]
  exact pad_eq_padded _ _ _ _ _ j

/-! ## The grid -/

/-- The three windows' block indices and the body's row offset at every grid point, decided over the 32 points: the
    image window follows the batch coordinate only, the filter and result windows the batch coordinate and the tile,
    and the loaded rows start at 64 times the tile. -/
theorem grid_facts : ∀ t : Fin cfg0.N,
    win0_0.index t (0 : Fin 4) = win0_2.index t (0 : Fin 4) ∧ win0_0.index t (1 : Fin 4) = 0
    ∧ win0_0.index t (2 : Fin 4) = 0 ∧ win0_0.index t (3 : Fin 4) = 0
    ∧ win0_1.index t (0 : Fin 4) = win0_2.index t (0 : Fin 4) ∧ win0_1.index t (1 : Fin 4) = 0
    ∧ win0_1.index t (2 : Fin 4) = win0_2.index t (2 : Fin 4) ∧ win0_1.index t (3 : Fin 4) = 0
    ∧ win0_2.index t (1 : Fin 4) = 0 ∧ win0_2.index t (3 : Fin 4) = 0
    ∧ k0_off1 (grid0.coords t) 0 = win0_2.index t (2 : Fin 4) * 64
    ∧ win0_2.index t (0 : Fin 4) < 4 ∧ win0_2.index t (2 : Fin 4) < 8 :=
  (by decide +kernel : ∀ t : Fin grid0.N, _)

/-- Every block of the result is some grid point's. -/
theorem grid_onto : ∀ (q0 : Fin 4) (q2 : Fin 8), ∃ t : Fin cfg0.N, win0_2.index t = ![q0.val, 0, q2.val, 0] :=
  (by decide +kernel : ∀ (q0 : Fin 4) (q2 : Fin 8), ∃ t : Fin grid0.N, win0_2.index t = ![q0.val, 0, q2.val, 0])

/-! ## The two input blocks, read off the arrays -/

/-- The image block and the filter block at a grid point, under their literal shapes. -/
abbrev imgBlk (c : Dev nD) (t : Fin cfg0.N) : Vec Ideal S1x3x520x640 .f32 := iblk m c 0 t
abbrev filBlk (c : Dev nD) (t : Fin cfg0.N) : Vec Ideal S1x75x64x512 .f32 := iblk m c 1 t

/-- The image block at a grid point is the padded image of the point's batch entry. -/
theorem img_blk (c : Dev nD) (t : Fin cfg0.N) (cc R W : ℕ) (hc : cc < 3) (hR : R < 520) (hW : W < 640) :
    nat4 0 (imgBlk m c t) 0 cc R W
      = padded zpad (imgArr m c) (win0_2.index t (0 : Fin 4)) cc R W := by
  obtain ⟨e0, e1, e2, e3, -⟩ := grid_facts t
  rw [nat4_of_lt _ _ (by decide : 0 < 1) hc hR hW]
  show (V m c main_v0 : S4x3x520x640.Idx → EReal)
      (((cfg0.win 0).blk t).view.emb (ix4 (⟨0, by decide⟩ : Fin 1) (⟨cc, hc⟩ : Fin 3) (⟨R, hR⟩ : Fin 520) (⟨W, hW⟩ : Fin 640))) = _
  rw [entry_img]
  refine congr (congr (congr (congrArg (padded zpad (imgArr m c)) ?_) ?_) ?_) ?_
  · show win0_0.index t (0 : Fin 4) * 1 + 1 * 0 = _; omega
  · show win0_0.index t (1 : Fin 4) * 3 + 1 * cc = _; omega
  · show win0_0.index t (2 : Fin 4) * 520 + 1 * R = _; omega
  · show win0_0.index t (3 : Fin 4) * 640 + 1 * W = _; omega

/-- The filter block at a grid point is the filter's tile of the point's batch entry. -/
theorem fil_blk (c : Dev nD) (t : Fin cfg0.N) (k r w : ℕ) (hk : k < 75) (hr : r < 64) (hw : w < 512) :
    nat4 0 (filBlk m c t) 0 k r w
      = nat4 0 (filArr m c) (win0_2.index t (0 : Fin 4)) k (win0_2.index t (2 : Fin 4) * 64 + r) w := by
  obtain ⟨-, -, -, -, e0, e1, e2, e3, -, -, -, hb, hh⟩ := grid_facts t
  rw [nat4_of_lt _ _ (by decide : 0 < 1) hk hr hw, nat4_of_lt _ _ hb hk (by omega : win0_2.index t (2 : Fin 4) * 64 + r < 512) hw]
  show (V m c main_arg1 : S4x75x512x512.Idx → EReal)
      (((cfg0.win 1).blk t).view.emb (ix4 (⟨0, by decide⟩ : Fin 1) (⟨k, hk⟩ : Fin 75) (⟨r, hr⟩ : Fin 64) (⟨w, hw⟩ : Fin 512))) = _
  rw [V_main_arg1]
  refine congrArg (filArr m c) (funext fun a => Fin.ext ?_)
  match a with
  | ⟨0, _⟩ => show win0_1.index t (0 : Fin 4) * 1 + 1 * 0 = win0_2.index t (0 : Fin 4); omega
  | ⟨1, _⟩ => show win0_1.index t (1 : Fin 4) * 75 + 1 * k = k; omega
  | ⟨2, _⟩ => show win0_1.index t (2 : Fin 4) * 64 + 1 * r = win0_2.index t (2 : Fin 4) * 64 + r; omega
  | ⟨3, _⟩ => show win0_1.index t (3 : Fin 4) * 512 + 1 * w = w; omega

/-! ## The result as one function -/

/-- The result array as ONE function of the two argument arrays: the filtered image at every pixel. -/
def resultFn (c : Dev nD) : S4x1x512x512.Idx → EReal := fun j =>
  filtered (Ideal.ofBits .f32 0x00000000#32) (padded zpad (imgArr m c))
    (nat4 0 (filArr m c)) (j 0).val (j 2).val (j 3).val

/-- The stored block at any index of the tile: the zero word plus the sum of the 75 tap terms over the point's blocks. -/
theorem storedBlock_eq (c : Dev nD) (t : Fin cfg0.N) (y : S1x1x64x512.Idx) :
    storedBlock m c t y
      = filtered (Ideal.ofBits .f32 0x00000000#32)
          (fun b cc Y X => nat4 0 (imgBlk m c t) b cc (k0_off1 (grid0.coords t) 0 + Y) X)
          (nat4 0 (filBlk m c t)) 0 (y 2).val (y 3).val := by
  have h2 : (y 2).val < 64 := (y 2).isLt
  have h3 : (y 3).val < 512 := (y 3).isLt
  have hy : y = ix4 (⟨0, Nat.one_pos⟩ : Fin 1) (⟨0, Nat.one_pos⟩ : Fin 1) (⟨(y 2).val, h2⟩ : Fin 64) (⟨(y 3).val, h3⟩ : Fin 512) := by
    funext a; apply Fin.ext
    match a with
    | ⟨0, _⟩ => show (y 0).val = 0; have : (y 0).val < 1 := (y 0).isLt; omega
    | ⟨1, _⟩ => show (y 1).val = 0; have : (y 1).val < 1 := (y 1).isLt; omega
    | ⟨2, _⟩ => rfl
    | ⟨3, _⟩ => rfl
  refine (congrArg (storedBlock m c t) hy).trans ?_
  unfold storedBlock
  rw [stored_at, ← filtered_eq_accum]

/-- What grid point `t` writes back is block `t` of the result function. -/
theorem flushed_eq (c : Dev nD) (t : Fin cfg0.N) :
    (dats m 0 c).flushed 2 t = ((cfg0.win 2).blk t).view.read (Elt Ideal) (resultFn m c) := by
  show (cfg0.win 2).cut (grid0.coords t) ((dats m 0 c).after 2 t) = _
  rw [after_out]
  funext y
  show storedBlock m c t y = resultFn m c (((cfg0.win 2).blk t).view.emb y)
  obtain ⟨-, -, -, -, -, -, -, -, f1, f3, foff, hb, hh⟩ := grid_facts t
  have y0 : (y 0).val < 1 := (y 0).isLt
  have y2 : (y 2).val < 64 := (y 2).isLt
  have y3 : (y 3).val < 512 := (y 3).isLt
  rw [storedBlock_eq]
  unfold resultFn
  have j0 : ((((cfg0.win 2).blk t).view.emb y) 0).val = win0_2.index t (0 : Fin 4) := by
    show win0_2.index t (0 : Fin 4) * 1 + 1 * (y 0).val = _; omega
  have j2 : ((((cfg0.win 2).blk t).view.emb y) 2).val = win0_2.index t (2 : Fin 4) * 64 + (y 2).val := by
    show win0_2.index t (2 : Fin 4) * 64 + 1 * (y 2).val = _; omega
  have j3 : ((((cfg0.win 2).blk t).view.emb y) 3).val = (y 3).val := by
    show win0_2.index t (3 : Fin 4) * 512 + 1 * (y 3).val = _; omega
  rw [j0, j2, j3]
  unfold filtered
  refine congrArg (_ + ·) (Finset.sum_congr rfl fun k _ => ?_)
  have hk : k.val < 75 := k.isLt
  show nat4 0 (imgBlk m c t) 0 (k.val / 25) (k0_off1 (grid0.coords t) 0 + ((y 2).val + k.val % 25 / 5)) ((y 3).val + k.val % 5)
      * nat4 0 (filBlk m c t) 0 k.val (y 2).val (y 3).val = _
  have e : win0_2.index t (2 : Fin 4) * 64 + ((y 2).val + k.val % 25 / 5)
      = win0_2.index t (2 : Fin 4) * 64 + (y 2).val + k.val % 25 / 5 := by omega
  rw [img_blk m c t _ _ _ (by omega) (by omega) (by omega), fil_blk m c t _ _ _ hk y2 y3, foff, e]

/-! ## The blocks tile the result -/

theorem mem_blk (t : Fin cfg0.N) (i : S4x1x512x512.Idx) :
    i ∈ ((cfg0.win 2).blk t).view.set ↔ ∀ a : Fin 4, win0_2.index t a * S1x1x64x512.size a ≤ (i a).val
      ∧ (i a).val < win0_2.index t a * S1x1x64x512.size a + S1x1x64x512.size a := by
  show i ∈ ((View.whole main_v1).slice (win0_2.rect t)).set ↔ _
  rw [View.set_slice_whole, Rect.mem_set_unit]
  exact Iff.rfl

/-- Every pixel of the result lies in the block of the grid point of its batch entry and its 64-row tile. -/
theorem covered (i : S4x1x512x512.Idx) :
    ∃ t : Fin cfg0.N, (cfg0.win 2).flush t = true ∧ i ∈ ((cfg0.win 2).blk t).view.set := by
  have i0 : (i 0).val < 4 := (i 0).isLt
  have i1 : (i 1).val < 1 := (i 1).isLt
  have i2 : (i 2).val < 512 := (i 2).isLt
  have i3 : (i 3).val < 512 := (i 3).isLt
  obtain ⟨t, ht⟩ := grid_onto ⟨(i 0).val, i0⟩ ⟨(i 2).val / 64, by omega⟩
  have q0 : win0_2.index t (0 : Fin 4) = (i 0).val := congrFun ht 0
  have q1 : win0_2.index t (1 : Fin 4) = 0 := congrFun ht 1
  have q2 : win0_2.index t (2 : Fin 4) = (i 2).val / 64 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 64 ≤ (i 2).val ∧ (i 2).val < win0_2.index t (2 : Fin 4) * 64 + 64; omega
  | ⟨3, _⟩ => show win0_2.index t (3 : Fin 4) * 512 ≤ (i 3).val ∧ (i 3).val < win0_2.index t (3 : Fin 4) * 512 + 512; omega

/-- The result array after the run is the result function. -/
theorem final (c : Dev nD) : (dats m 0 c).arrAt 2 cfg0.N = resultFn m c :=
  (dats m 0 c).arrAt_eq_of_cover 2 (resultFn m c) (fun t _ => flushed_eq m c t) covered

/-! ## The run, read -/

/-- Every weakly fair execution terminates without a fault, with the result array at the result function of the
    argument arrays and both argument arrays unchanged. -/
theorem run : θ_run defs (onTc (τ := τ) (main (F := Ideal))) ⟨m, fun _ => 0, ρ⟩ fun r => ∀ c : Dev nD,
      r.2.mem ((c : Thread nD τ).loc main_v1) = resultFn m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m ρ)

end Cert.KernelIdeal.Hand

end
-- ==== Proof.RefValue.lean ====
/-
  The reference, index by index.

  The reference pads the image by two zeros on every side, takes the 25 shifted 512 × 512 slices of the padded image
  (row shift i, column shift j, in the order 5·i + j), stacks them along a new axis, flattens channel and shift into
  the 75 taps (tap 25·c + 5·i + j), multiplies by the filter and sums over the taps from the zero word. So its result
  at pixel (b, y, w) is the zero word plus the sum over the taps of the padded image at (b, c, y + i, w + j) times the
  filter's tap at the pixel: the same function the kernel's result is.
-/
import proofs.«131794_j68891275428414_2_alg».proof.Proof.Gen.ReferenceIdeal.Read
import proofs.«131794_j68891275428414_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read Cert.DynFilter
open Idealize.ShloMosaic Idealize.ShloMosaic.TcCoe Idealize.ShloMosaic.ValueIdx Idealize.ShloMosaic.StableHlo
open scoped BigOperators

/-- The value the reference pads with: the integer zero converted to a float. -/
abbrev zpad : EReal := (val_main_call0_v0 (F := Ideal)) (Shape.Idx.first h_S_)

/-- The reference's padded image is the image padded by two on every side, at natural coordinates. -/
theorem padded_img (x0 : (⟨S4x3x512x512, .f32⟩ : BufTy).Contents (Elt Ideal)) (j : S4x3x516x516.Idx) :
    val_main_v0 (F := Ideal) x0 j = padded zpad x0 (j 0).val (j 1).val (j 2).val (j 3).val := by
  unfold val_main_v0
  exact pad_eq_padded _ x0 _ _ _ j

/-! ## The 25 shifted slices -/

/-- Shift (0, 0): the slice of the padded image from row 0, column 0, with its unit axis. -/
theorem shift_0 (x0 : (⟨S4x3x512x512, .f32⟩ : BufTy).Contents (Elt Ideal)) (b : Fin 4) (c : Fin 3) (y w : Fin 512) :
    val_main_v26 (F := Ideal) x0 (ix5 b c (⟨0, Nat.one_pos⟩ : Fin 1) y w) = padded zpad x0 b.val c.val (y.val + 0) (w.val + 0) := by
  rw [val_main_v26_apply, val_main_v1_apply, padded_img]
  show padded zpad x0 b.val c.val (y.val) (w.val) = padded zpad x0 b.val c.val (y.val + 0) (w.val + 0)
  exact congrArg₂ (padded zpad x0 b.val c.val) (by omega) (by omega)

/-- Shift (0, 1): the slice of the padded image from row 0, column 1, with its unit axis. -/
theorem shift_1 (x0 : (⟨S4x3x512x512, .f32⟩ : BufTy).Contents (Elt Ideal)) (b : Fin 4) (c : Fin 3) (y w : Fin 512) :
    val_main_v27 (F := Ideal) x0 (ix5 b c (⟨0, Nat.one_pos⟩ : Fin 1) y w) = padded zpad x0 b.val c.val (y.val + 0) (w.val + 1) := by
  rw [val_main_v27_apply, val_main_v2_apply, padded_img]
  show padded zpad x0 b.val c.val (y.val) (1 + w.val) = padded zpad x0 b.val c.val (y.val + 0) (w.val + 1)
  exact congrArg₂ (padded zpad x0 b.val c.val) (by omega) (by omega)

/-- Shift (0, 2): the slice of the padded image from row 0, column 2, with its unit axis. -/
theorem shift_2 (x0 : (⟨S4x3x512x512, .f32⟩ : BufTy).Contents (Elt Ideal)) (b : Fin 4) (c : Fin 3) (y w : Fin 512) :
    val_main_v28 (F := Ideal) x0 (ix5 b c (⟨0, Nat.one_pos⟩ : Fin 1) y w) = padded zpad x0 b.val c.val (y.val + 0) (w.val + 2) := by
  rw [val_main_v28_apply, val_main_v3_apply, padded_img]
  show padded zpad x0 b.val c.val (y.val) (2 + w.val) = padded zpad x0 b.val c.val (y.val + 0) (w.val + 2)
  exact congrArg₂ (padded zpad x0 b.val c.val) (by omega) (by omega)

/-- Shift (0, 3): the slice of the padded image from row 0, column 3, with its unit axis. -/
theorem shift_3 (x0 : (⟨S4x3x512x512, .f32⟩ : BufTy).Contents (Elt Ideal)) (b : Fin 4) (c : Fin 3) (y w : Fin 512) :
    val_main_v29 (F := Ideal) x0 (ix5 b c (⟨0, Nat.one_pos⟩ : Fin 1) y w) = padded zpad x0 b.val c.val (y.val + 0) (w.val + 3) := by
  rw [val_main_v29_apply, val_main_v4_apply, padded_img]
  show padded zpad x0 b.val c.val (y.val) (3 + w.val) = padded zpad x0 b.val c.val (y.val + 0) (w.val + 3)
  exact congrArg₂ (padded zpad x0 b.val c.val) (by omega) (by omega)

/-- Shift (0, 4): the slice of the padded image from row 0, column 4, with its unit axis. -/
theorem shift_4 (x0 : (⟨S4x3x512x512, .f32⟩ : BufTy).Contents (Elt Ideal)) (b : Fin 4) (c : Fin 3) (y w : Fin 512) :
    val_main_v30 (F := Ideal) x0 (ix5 b c (⟨0, Nat.one_pos⟩ : Fin 1) y w) = padded zpad x0 b.val c.val (y.val + 0) (w.val + 4) := by
  rw [val_main_v30_apply, val_main_v5_apply, padded_img]
  show padded zpad x0 b.val c.val (y.val) (4 + w.val) = padded zpad x0 b.val c.val (y.val + 0) (w.val + 4)
  exact congrArg₂ (padded zpad x0 b.val c.val) (by omega) (by omega)

/-- Shift (1, 0): the slice of the padded image from row 1, column 0, with its unit axis. -/
theorem shift_5 (x0 : (⟨S4x3x512x512, .f32⟩ : BufTy).Contents (Elt Ideal)) (b : Fin 4) (c : Fin 3) (y w : Fin 512) :
    val_main_v31 (F := Ideal) x0 (ix5 b c (⟨0, Nat.one_pos⟩ : Fin 1) y w) = padded zpad x0 b.val c.val (y.val + 1) (w.val + 0) := by
  rw [val_main_v31_apply, val_main_v6_apply, padded_img]
  show padded zpad x0 b.val c.val (1 + y.val) (w.val) = padded zpad x0 b.val c.val (y.val + 1) (w.val + 0)
  exact congrArg₂ (padded zpad x0 b.val c.val) (by omega) (by omega)

/-- Shift (1, 1): the slice of the padded image from row 1, column 1, with its unit axis. -/
theorem shift_6 (x0 : (⟨S4x3x512x512, .f32⟩ : BufTy).Contents (Elt Ideal)) (b : Fin 4) (c : Fin 3) (y w : Fin 512) :
    val_main_v32 (F := Ideal) x0 (ix5 b c (⟨0, Nat.one_pos⟩ : Fin 1) y w) = padded zpad x0 b.val c.val (y.val + 1) (w.val + 1) := by
  rw [val_main_v32_apply, val_main_v7_apply, padded_img]
  show padded zpad x0 b.val c.val (1 + y.val) (1 + w.val) = padded zpad x0 b.val c.val (y.val + 1) (w.val + 1)
  exact congrArg₂ (padded zpad x0 b.val c.val) (by omega) (by omega)

/-- Shift (1, 2): the slice of the padded image from row 1, column 2, with its unit axis. -/
theorem shift_7 (x0 : (⟨S4x3x512x512, .f32⟩ : BufTy).Contents (Elt Ideal)) (b : Fin 4) (c : Fin 3) (y w : Fin 512) :
    val_main_v33 (F := Ideal) x0 (ix5 b c (⟨0, Nat.one_pos⟩ : Fin 1) y w) = padded zpad x0 b.val c.val (y.val + 1) (w.val + 2) := by
  rw [val_main_v33_apply, val_main_v8_apply, padded_img]
  show padded zpad x0 b.val c.val (1 + y.val) (2 + w.val) = padded zpad x0 b.val c.val (y.val + 1) (w.val + 2)
  exact congrArg₂ (padded zpad x0 b.val c.val) (by omega) (by omega)

/-- Shift (1, 3): the slice of the padded image from row 1, column 3, with its unit axis. -/
theorem shift_8 (x0 : (⟨S4x3x512x512, .f32⟩ : BufTy).Contents (Elt Ideal)) (b : Fin 4) (c : Fin 3) (y w : Fin 512) :
    val_main_v34 (F := Ideal) x0 (ix5 b c (⟨0, Nat.one_pos⟩ : Fin 1) y w) = padded zpad x0 b.val c.val (y.val + 1) (w.val + 3) := by
  rw [val_main_v34_apply, val_main_v9_apply, padded_img]
  show padded zpad x0 b.val c.val (1 + y.val) (3 + w.val) = padded zpad x0 b.val c.val (y.val + 1) (w.val + 3)
  exact congrArg₂ (padded zpad x0 b.val c.val) (by omega) (by omega)

/-- Shift (1, 4): the slice of the padded image from row 1, column 4, with its unit axis. -/
theorem shift_9 (x0 : (⟨S4x3x512x512, .f32⟩ : BufTy).Contents (Elt Ideal)) (b : Fin 4) (c : Fin 3) (y w : Fin 512) :
    val_main_v35 (F := Ideal) x0 (ix5 b c (⟨0, Nat.one_pos⟩ : Fin 1) y w) = padded zpad x0 b.val c.val (y.val + 1) (w.val + 4) := by
  rw [val_main_v35_apply, val_main_v10_apply, padded_img]
  show padded zpad x0 b.val c.val (1 + y.val) (4 + w.val) = padded zpad x0 b.val c.val (y.val + 1) (w.val + 4)
  exact congrArg₂ (padded zpad x0 b.val c.val) (by omega) (by omega)

/-- Shift (2, 0): the slice of the padded image from row 2, column 0, with its unit axis. -/
theorem shift_10 (x0 : (⟨S4x3x512x512, .f32⟩ : BufTy).Contents (Elt Ideal)) (b : Fin 4) (c : Fin 3) (y w : Fin 512) :
    val_main_v36 (F := Ideal) x0 (ix5 b c (⟨0, Nat.one_pos⟩ : Fin 1) y w) = padded zpad x0 b.val c.val (y.val + 2) (w.val + 0) := by
  rw [val_main_v36_apply, val_main_v11_apply, padded_img]
  show padded zpad x0 b.val c.val (2 + y.val) (w.val) = padded zpad x0 b.val c.val (y.val + 2) (w.val + 0)
  exact congrArg₂ (padded zpad x0 b.val c.val) (by omega) (by omega)

/-- Shift (2, 1): the slice of the padded image from row 2, column 1, with its unit axis. -/
theorem shift_11 (x0 : (⟨S4x3x512x512, .f32⟩ : BufTy).Contents (Elt Ideal)) (b : Fin 4) (c : Fin 3) (y w : Fin 512) :
    val_main_v37 (F := Ideal) x0 (ix5 b c (⟨0, Nat.one_pos⟩ : Fin 1) y w) = padded zpad x0 b.val c.val (y.val + 2) (w.val + 1) := by
  rw [val_main_v37_apply, val_main_v12_apply, padded_img]
  show padded zpad x0 b.val c.val (2 + y.val) (1 + w.val) = padded zpad x0 b.val c.val (y.val + 2) (w.val + 1)
  exact congrArg₂ (padded zpad x0 b.val c.val) (by omega) (by omega)

/-- Shift (2, 2): the slice of the padded image from row 2, column 2, with its unit axis. -/
theorem shift_12 (x0 : (⟨S4x3x512x512, .f32⟩ : BufTy).Contents (Elt Ideal)) (b : Fin 4) (c : Fin 3) (y w : Fin 512) :
    val_main_v38 (F := Ideal) x0 (ix5 b c (⟨0, Nat.one_pos⟩ : Fin 1) y w) = padded zpad x0 b.val c.val (y.val + 2) (w.val + 2) := by
  rw [val_main_v38_apply, val_main_v13_apply, padded_img]
  show padded zpad x0 b.val c.val (2 + y.val) (2 + w.val) = padded zpad x0 b.val c.val (y.val + 2) (w.val + 2)
  exact congrArg₂ (padded zpad x0 b.val c.val) (by omega) (by omega)

/-- Shift (2, 3): the slice of the padded image from row 2, column 3, with its unit axis. -/
theorem shift_13 (x0 : (⟨S4x3x512x512, .f32⟩ : BufTy).Contents (Elt Ideal)) (b : Fin 4) (c : Fin 3) (y w : Fin 512) :
    val_main_v39 (F := Ideal) x0 (ix5 b c (⟨0, Nat.one_pos⟩ : Fin 1) y w) = padded zpad x0 b.val c.val (y.val + 2) (w.val + 3) := by
  rw [val_main_v39_apply, val_main_v14_apply, padded_img]
  show padded zpad x0 b.val c.val (2 + y.val) (3 + w.val) = padded zpad x0 b.val c.val (y.val + 2) (w.val + 3)
  exact congrArg₂ (padded zpad x0 b.val c.val) (by omega) (by omega)

/-- Shift (2, 4): the slice of the padded image from row 2, column 4, with its unit axis. -/
theorem shift_14 (x0 : (⟨S4x3x512x512, .f32⟩ : BufTy).Contents (Elt Ideal)) (b : Fin 4) (c : Fin 3) (y w : Fin 512) :
    val_main_v40 (F := Ideal) x0 (ix5 b c (⟨0, Nat.one_pos⟩ : Fin 1) y w) = padded zpad x0 b.val c.val (y.val + 2) (w.val + 4) := by
  rw [val_main_v40_apply, val_main_v15_apply, padded_img]
  show padded zpad x0 b.val c.val (2 + y.val) (4 + w.val) = padded zpad x0 b.val c.val (y.val + 2) (w.val + 4)
  exact congrArg₂ (padded zpad x0 b.val c.val) (by omega) (by omega)

/-- Shift (3, 0): the slice of the padded image from row 3, column 0, with its unit axis. -/
theorem shift_15 (x0 : (⟨S4x3x512x512, .f32⟩ : BufTy).Contents (Elt Ideal)) (b : Fin 4) (c : Fin 3) (y w : Fin 512) :
    val_main_v41 (F := Ideal) x0 (ix5 b c (⟨0, Nat.one_pos⟩ : Fin 1) y w) = padded zpad x0 b.val c.val (y.val + 3) (w.val + 0) := by
  rw [val_main_v41_apply, val_main_v16_apply, padded_img]
  show padded zpad x0 b.val c.val (3 + y.val) (w.val) = padded zpad x0 b.val c.val (y.val + 3) (w.val + 0)
  exact congrArg₂ (padded zpad x0 b.val c.val) (by omega) (by omega)

/-- Shift (3, 1): the slice of the padded image from row 3, column 1, with its unit axis. -/
theorem shift_16 (x0 : (⟨S4x3x512x512, .f32⟩ : BufTy).Contents (Elt Ideal)) (b : Fin 4) (c : Fin 3) (y w : Fin 512) :
    val_main_v42 (F := Ideal) x0 (ix5 b c (⟨0, Nat.one_pos⟩ : Fin 1) y w) = padded zpad x0 b.val c.val (y.val + 3) (w.val + 1) := by
  rw [val_main_v42_apply, val_main_v17_apply, padded_img]
  show padded zpad x0 b.val c.val (3 + y.val) (1 + w.val) = padded zpad x0 b.val c.val (y.val + 3) (w.val + 1)
  exact congrArg₂ (padded zpad x0 b.val c.val) (by omega) (by omega)

/-- Shift (3, 2): the slice of the padded image from row 3, column 2, with its unit axis. -/
theorem shift_17 (x0 : (⟨S4x3x512x512, .f32⟩ : BufTy).Contents (Elt Ideal)) (b : Fin 4) (c : Fin 3) (y w : Fin 512) :
    val_main_v43 (F := Ideal) x0 (ix5 b c (⟨0, Nat.one_pos⟩ : Fin 1) y w) = padded zpad x0 b.val c.val (y.val + 3) (w.val + 2) := by
  rw [val_main_v43_apply, val_main_v18_apply, padded_img]
  show padded zpad x0 b.val c.val (3 + y.val) (2 + w.val) = padded zpad x0 b.val c.val (y.val + 3) (w.val + 2)
  exact congrArg₂ (padded zpad x0 b.val c.val) (by omega) (by omega)

/-- Shift (3, 3): the slice of the padded image from row 3, column 3, with its unit axis. -/
theorem shift_18 (x0 : (⟨S4x3x512x512, .f32⟩ : BufTy).Contents (Elt Ideal)) (b : Fin 4) (c : Fin 3) (y w : Fin 512) :
    val_main_v44 (F := Ideal) x0 (ix5 b c (⟨0, Nat.one_pos⟩ : Fin 1) y w) = padded zpad x0 b.val c.val (y.val + 3) (w.val + 3) := by
  rw [val_main_v44_apply, val_main_v19_apply, padded_img]
  show padded zpad x0 b.val c.val (3 + y.val) (3 + w.val) = padded zpad x0 b.val c.val (y.val + 3) (w.val + 3)
  exact congrArg₂ (padded zpad x0 b.val c.val) (by omega) (by omega)

/-- Shift (3, 4): the slice of the padded image from row 3, column 4, with its unit axis. -/
theorem shift_19 (x0 : (⟨S4x3x512x512, .f32⟩ : BufTy).Contents (Elt Ideal)) (b : Fin 4) (c : Fin 3) (y w : Fin 512) :
    val_main_v45 (F := Ideal) x0 (ix5 b c (⟨0, Nat.one_pos⟩ : Fin 1) y w) = padded zpad x0 b.val c.val (y.val + 3) (w.val + 4) := by
  rw [val_main_v45_apply, val_main_v20_apply, padded_img]
  show padded zpad x0 b.val c.val (3 + y.val) (4 + w.val) = padded zpad x0 b.val c.val (y.val + 3) (w.val + 4)
  exact congrArg₂ (padded zpad x0 b.val c.val) (by omega) (by omega)

/-- Shift (4, 0): the slice of the padded image from row 4, column 0, with its unit axis. -/
theorem shift_20 (x0 : (⟨S4x3x512x512, .f32⟩ : BufTy).Contents (Elt Ideal)) (b : Fin 4) (c : Fin 3) (y w : Fin 512) :
    val_main_v46 (F := Ideal) x0 (ix5 b c (⟨0, Nat.one_pos⟩ : Fin 1) y w) = padded zpad x0 b.val c.val (y.val + 4) (w.val + 0) := by
  rw [val_main_v46_apply, val_main_v21_apply, padded_img]
  show padded zpad x0 b.val c.val (4 + y.val) (w.val) = padded zpad x0 b.val c.val (y.val + 4) (w.val + 0)
  exact congrArg₂ (padded zpad x0 b.val c.val) (by omega) (by omega)

/-- Shift (4, 1): the slice of the padded image from row 4, column 1, with its unit axis. -/
theorem shift_21 (x0 : (⟨S4x3x512x512, .f32⟩ : BufTy).Contents (Elt Ideal)) (b : Fin 4) (c : Fin 3) (y w : Fin 512) :
    val_main_v47 (F := Ideal) x0 (ix5 b c (⟨0, Nat.one_pos⟩ : Fin 1) y w) = padded zpad x0 b.val c.val (y.val + 4) (w.val + 1) := by
  rw [val_main_v47_apply, val_main_v22_apply, padded_img]
  show padded zpad x0 b.val c.val (4 + y.val) (1 + w.val) = padded zpad x0 b.val c.val (y.val + 4) (w.val + 1)
  exact congrArg₂ (padded zpad x0 b.val c.val) (by omega) (by omega)

/-- Shift (4, 2): the slice of the padded image from row 4, column 2, with its unit axis. -/
theorem shift_22 (x0 : (⟨S4x3x512x512, .f32⟩ : BufTy).Contents (Elt Ideal)) (b : Fin 4) (c : Fin 3) (y w : Fin 512) :
    val_main_v48 (F := Ideal) x0 (ix5 b c (⟨0, Nat.one_pos⟩ : Fin 1) y w) = padded zpad x0 b.val c.val (y.val + 4) (w.val + 2) := by
  rw [val_main_v48_apply, val_main_v23_apply, padded_img]
  show padded zpad x0 b.val c.val (4 + y.val) (2 + w.val) = padded zpad x0 b.val c.val (y.val + 4) (w.val + 2)
  exact congrArg₂ (padded zpad x0 b.val c.val) (by omega) (by omega)

/-- Shift (4, 3): the slice of the padded image from row 4, column 3, with its unit axis. -/
theorem shift_23 (x0 : (⟨S4x3x512x512, .f32⟩ : BufTy).Contents (Elt Ideal)) (b : Fin 4) (c : Fin 3) (y w : Fin 512) :
    val_main_v49 (F := Ideal) x0 (ix5 b c (⟨0, Nat.one_pos⟩ : Fin 1) y w) = padded zpad x0 b.val c.val (y.val + 4) (w.val + 3) := by
  rw [val_main_v49_apply, val_main_v24_apply, padded_img]
  show padded zpad x0 b.val c.val (4 + y.val) (3 + w.val) = padded zpad x0 b.val c.val (y.val + 4) (w.val + 3)
  exact congrArg₂ (padded zpad x0 b.val c.val) (by omega) (by omega)

/-- Shift (4, 4): the slice of the padded image from row 4, column 4, with its unit axis. -/
theorem shift_24 (x0 : (⟨S4x3x512x512, .f32⟩ : BufTy).Contents (Elt Ideal)) (b : Fin 4) (c : Fin 3) (y w : Fin 512) :
    val_main_v50 (F := Ideal) x0 (ix5 b c (⟨0, Nat.one_pos⟩ : Fin 1) y w) = padded zpad x0 b.val c.val (y.val + 4) (w.val + 4) := by
  rw [val_main_v50_apply, val_main_v25_apply, padded_img]
  show padded zpad x0 b.val c.val (4 + y.val) (4 + w.val) = padded zpad x0 b.val c.val (y.val + 4) (w.val + 4)
  exact congrArg₂ (padded zpad x0 b.val c.val) (by omega) (by omega)

/-! ## The stack of the 25 shifts, and the 75 taps -/

set_option maxHeartbeats 4000000 in
/-- The stack at shift `p` is the padded image shifted by (p / 5, p mod 5): the first sixteen shifts sit in the
    first stack, the last nine in the second, each as the piece its position names. -/
theorem stack_at (x0 : (⟨S4x3x512x512, .f32⟩ : BufTy).Contents (Elt Ideal)) (b : Fin 4) (c : Fin 3) (p : Fin 25) (y w : Fin 512) :
    val_main_v53 (F := Ideal) x0 (ix5 b c p y w) = padded zpad x0 b.val c.val (y.val + p.val / 5) (w.val + p.val % 5) := by
  fin_cases p
  · -- shift 0: in the first stack, piece 0
    unfold val_main_v53
    refine (concatenate_pair_apply_left (t := S4x3x25x512x512) (s₁ := S4x3x16x512x512) (s₂ := S4x3x9x512x512) (2 : Fin 5) (val_main_v51 (F := Ideal) x0) (val_main_v52 (F := Ideal) x0) _ (ix5 b c (⟨0, by decide⟩ : Fin 25) y w) rfl
      (ix5 b c (⟨0, by decide⟩ : Fin 16) y w) (fun d => by
        match d with
        | ⟨0, _⟩ => rfl
        | ⟨1, _⟩ => rfl
        | ⟨2, _⟩ => rfl
        | ⟨3, _⟩ => rfl
        | ⟨4, _⟩ => rfl)).trans ?_
    unfold val_main_v51
    exact (concatenate_apply_piece (t := S4x3x16x512x512) (2 : Fin 5) _ _ (ix5 b c (⟨0, by decide⟩ : Fin 16) y w) 0 (by show 0 < 16; omega) S4x3x1x512x512 (val_main_v26 (F := Ideal) x0) rfl rfl 0 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_0 x0 b c y w)
  · -- shift 1: in the first stack, piece 1
    unfold val_main_v53
    refine (concatenate_pair_apply_left (t := S4x3x25x512x512) (s₁ := S4x3x16x512x512) (s₂ := S4x3x9x512x512) (2 : Fin 5) (val_main_v51 (F := Ideal) x0) (val_main_v52 (F := Ideal) x0) _ (ix5 b c (⟨1, by decide⟩ : Fin 25) y w) rfl
      (ix5 b c (⟨1, by decide⟩ : Fin 16) y w) (fun d => by
        match d with
        | ⟨0, _⟩ => rfl
        | ⟨1, _⟩ => rfl
        | ⟨2, _⟩ => rfl
        | ⟨3, _⟩ => rfl
        | ⟨4, _⟩ => rfl)).trans ?_
    unfold val_main_v51
    exact (concatenate_apply_piece (t := S4x3x16x512x512) (2 : Fin 5) _ _ (ix5 b c (⟨1, by decide⟩ : Fin 16) y w) 1 (by show 1 < 16; omega) S4x3x1x512x512 (val_main_v27 (F := Ideal) x0) rfl rfl 1 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_1 x0 b c y w)
  · -- shift 2: in the first stack, piece 2
    unfold val_main_v53
    refine (concatenate_pair_apply_left (t := S4x3x25x512x512) (s₁ := S4x3x16x512x512) (s₂ := S4x3x9x512x512) (2 : Fin 5) (val_main_v51 (F := Ideal) x0) (val_main_v52 (F := Ideal) x0) _ (ix5 b c (⟨2, by decide⟩ : Fin 25) y w) rfl
      (ix5 b c (⟨2, by decide⟩ : Fin 16) y w) (fun d => by
        match d with
        | ⟨0, _⟩ => rfl
        | ⟨1, _⟩ => rfl
        | ⟨2, _⟩ => rfl
        | ⟨3, _⟩ => rfl
        | ⟨4, _⟩ => rfl)).trans ?_
    unfold val_main_v51
    exact (concatenate_apply_piece (t := S4x3x16x512x512) (2 : Fin 5) _ _ (ix5 b c (⟨2, by decide⟩ : Fin 16) y w) 2 (by show 2 < 16; omega) S4x3x1x512x512 (val_main_v28 (F := Ideal) x0) rfl rfl 2 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_2 x0 b c y w)
  · -- shift 3: in the first stack, piece 3
    unfold val_main_v53
    refine (concatenate_pair_apply_left (t := S4x3x25x512x512) (s₁ := S4x3x16x512x512) (s₂ := S4x3x9x512x512) (2 : Fin 5) (val_main_v51 (F := Ideal) x0) (val_main_v52 (F := Ideal) x0) _ (ix5 b c (⟨3, by decide⟩ : Fin 25) y w) rfl
      (ix5 b c (⟨3, by decide⟩ : Fin 16) y w) (fun d => by
        match d with
        | ⟨0, _⟩ => rfl
        | ⟨1, _⟩ => rfl
        | ⟨2, _⟩ => rfl
        | ⟨3, _⟩ => rfl
        | ⟨4, _⟩ => rfl)).trans ?_
    unfold val_main_v51
    exact (concatenate_apply_piece (t := S4x3x16x512x512) (2 : Fin 5) _ _ (ix5 b c (⟨3, by decide⟩ : Fin 16) y w) 3 (by show 3 < 16; omega) S4x3x1x512x512 (val_main_v29 (F := Ideal) x0) rfl rfl 3 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_3 x0 b c y w)
  · -- shift 4: in the first stack, piece 4
    unfold val_main_v53
    refine (concatenate_pair_apply_left (t := S4x3x25x512x512) (s₁ := S4x3x16x512x512) (s₂ := S4x3x9x512x512) (2 : Fin 5) (val_main_v51 (F := Ideal) x0) (val_main_v52 (F := Ideal) x0) _ (ix5 b c (⟨4, by decide⟩ : Fin 25) y w) rfl
      (ix5 b c (⟨4, by decide⟩ : Fin 16) y w) (fun d => by
        match d with
        | ⟨0, _⟩ => rfl
        | ⟨1, _⟩ => rfl
        | ⟨2, _⟩ => rfl
        | ⟨3, _⟩ => rfl
        | ⟨4, _⟩ => rfl)).trans ?_
    unfold val_main_v51
    exact (concatenate_apply_piece (t := S4x3x16x512x512) (2 : Fin 5) _ _ (ix5 b c (⟨4, by decide⟩ : Fin 16) y w) 4 (by show 4 < 16; omega) S4x3x1x512x512 (val_main_v30 (F := Ideal) x0) rfl rfl 4 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_4 x0 b c y w)
  · -- shift 5: in the first stack, piece 5
    unfold val_main_v53
    refine (concatenate_pair_apply_left (t := S4x3x25x512x512) (s₁ := S4x3x16x512x512) (s₂ := S4x3x9x512x512) (2 : Fin 5) (val_main_v51 (F := Ideal) x0) (val_main_v52 (F := Ideal) x0) _ (ix5 b c (⟨5, by decide⟩ : Fin 25) y w) rfl
      (ix5 b c (⟨5, by decide⟩ : Fin 16) y w) (fun d => by
        match d with
        | ⟨0, _⟩ => rfl
        | ⟨1, _⟩ => rfl
        | ⟨2, _⟩ => rfl
        | ⟨3, _⟩ => rfl
        | ⟨4, _⟩ => rfl)).trans ?_
    unfold val_main_v51
    exact (concatenate_apply_piece (t := S4x3x16x512x512) (2 : Fin 5) _ _ (ix5 b c (⟨5, by decide⟩ : Fin 16) y w) 5 (by show 5 < 16; omega) S4x3x1x512x512 (val_main_v31 (F := Ideal) x0) rfl rfl 5 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_5 x0 b c y w)
  · -- shift 6: in the first stack, piece 6
    unfold val_main_v53
    refine (concatenate_pair_apply_left (t := S4x3x25x512x512) (s₁ := S4x3x16x512x512) (s₂ := S4x3x9x512x512) (2 : Fin 5) (val_main_v51 (F := Ideal) x0) (val_main_v52 (F := Ideal) x0) _ (ix5 b c (⟨6, by decide⟩ : Fin 25) y w) rfl
      (ix5 b c (⟨6, by decide⟩ : Fin 16) y w) (fun d => by
        match d with
        | ⟨0, _⟩ => rfl
        | ⟨1, _⟩ => rfl
        | ⟨2, _⟩ => rfl
        | ⟨3, _⟩ => rfl
        | ⟨4, _⟩ => rfl)).trans ?_
    unfold val_main_v51
    exact (concatenate_apply_piece (t := S4x3x16x512x512) (2 : Fin 5) _ _ (ix5 b c (⟨6, by decide⟩ : Fin 16) y w) 6 (by show 6 < 16; omega) S4x3x1x512x512 (val_main_v32 (F := Ideal) x0) rfl rfl 6 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_6 x0 b c y w)
  · -- shift 7: in the first stack, piece 7
    unfold val_main_v53
    refine (concatenate_pair_apply_left (t := S4x3x25x512x512) (s₁ := S4x3x16x512x512) (s₂ := S4x3x9x512x512) (2 : Fin 5) (val_main_v51 (F := Ideal) x0) (val_main_v52 (F := Ideal) x0) _ (ix5 b c (⟨7, by decide⟩ : Fin 25) y w) rfl
      (ix5 b c (⟨7, by decide⟩ : Fin 16) y w) (fun d => by
        match d with
        | ⟨0, _⟩ => rfl
        | ⟨1, _⟩ => rfl
        | ⟨2, _⟩ => rfl
        | ⟨3, _⟩ => rfl
        | ⟨4, _⟩ => rfl)).trans ?_
    unfold val_main_v51
    exact (concatenate_apply_piece (t := S4x3x16x512x512) (2 : Fin 5) _ _ (ix5 b c (⟨7, by decide⟩ : Fin 16) y w) 7 (by show 7 < 16; omega) S4x3x1x512x512 (val_main_v33 (F := Ideal) x0) rfl rfl 7 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_7 x0 b c y w)
  · -- shift 8: in the first stack, piece 8
    unfold val_main_v53
    refine (concatenate_pair_apply_left (t := S4x3x25x512x512) (s₁ := S4x3x16x512x512) (s₂ := S4x3x9x512x512) (2 : Fin 5) (val_main_v51 (F := Ideal) x0) (val_main_v52 (F := Ideal) x0) _ (ix5 b c (⟨8, by decide⟩ : Fin 25) y w) rfl
      (ix5 b c (⟨8, by decide⟩ : Fin 16) y w) (fun d => by
        match d with
        | ⟨0, _⟩ => rfl
        | ⟨1, _⟩ => rfl
        | ⟨2, _⟩ => rfl
        | ⟨3, _⟩ => rfl
        | ⟨4, _⟩ => rfl)).trans ?_
    unfold val_main_v51
    exact (concatenate_apply_piece (t := S4x3x16x512x512) (2 : Fin 5) _ _ (ix5 b c (⟨8, by decide⟩ : Fin 16) y w) 8 (by show 8 < 16; omega) S4x3x1x512x512 (val_main_v34 (F := Ideal) x0) rfl rfl 8 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_8 x0 b c y w)
  · -- shift 9: in the first stack, piece 9
    unfold val_main_v53
    refine (concatenate_pair_apply_left (t := S4x3x25x512x512) (s₁ := S4x3x16x512x512) (s₂ := S4x3x9x512x512) (2 : Fin 5) (val_main_v51 (F := Ideal) x0) (val_main_v52 (F := Ideal) x0) _ (ix5 b c (⟨9, by decide⟩ : Fin 25) y w) rfl
      (ix5 b c (⟨9, by decide⟩ : Fin 16) y w) (fun d => by
        match d with
        | ⟨0, _⟩ => rfl
        | ⟨1, _⟩ => rfl
        | ⟨2, _⟩ => rfl
        | ⟨3, _⟩ => rfl
        | ⟨4, _⟩ => rfl)).trans ?_
    unfold val_main_v51
    exact (concatenate_apply_piece (t := S4x3x16x512x512) (2 : Fin 5) _ _ (ix5 b c (⟨9, by decide⟩ : Fin 16) y w) 9 (by show 9 < 16; omega) S4x3x1x512x512 (val_main_v35 (F := Ideal) x0) rfl rfl 9 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_9 x0 b c y w)
  · -- shift 10: in the first stack, piece 10
    unfold val_main_v53
    refine (concatenate_pair_apply_left (t := S4x3x25x512x512) (s₁ := S4x3x16x512x512) (s₂ := S4x3x9x512x512) (2 : Fin 5) (val_main_v51 (F := Ideal) x0) (val_main_v52 (F := Ideal) x0) _ (ix5 b c (⟨10, by decide⟩ : Fin 25) y w) rfl
      (ix5 b c (⟨10, by decide⟩ : Fin 16) y w) (fun d => by
        match d with
        | ⟨0, _⟩ => rfl
        | ⟨1, _⟩ => rfl
        | ⟨2, _⟩ => rfl
        | ⟨3, _⟩ => rfl
        | ⟨4, _⟩ => rfl)).trans ?_
    unfold val_main_v51
    exact (concatenate_apply_piece (t := S4x3x16x512x512) (2 : Fin 5) _ _ (ix5 b c (⟨10, by decide⟩ : Fin 16) y w) 10 (by show 10 < 16; omega) S4x3x1x512x512 (val_main_v36 (F := Ideal) x0) rfl rfl 10 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_10 x0 b c y w)
  · -- shift 11: in the first stack, piece 11
    unfold val_main_v53
    refine (concatenate_pair_apply_left (t := S4x3x25x512x512) (s₁ := S4x3x16x512x512) (s₂ := S4x3x9x512x512) (2 : Fin 5) (val_main_v51 (F := Ideal) x0) (val_main_v52 (F := Ideal) x0) _ (ix5 b c (⟨11, by decide⟩ : Fin 25) y w) rfl
      (ix5 b c (⟨11, by decide⟩ : Fin 16) y w) (fun d => by
        match d with
        | ⟨0, _⟩ => rfl
        | ⟨1, _⟩ => rfl
        | ⟨2, _⟩ => rfl
        | ⟨3, _⟩ => rfl
        | ⟨4, _⟩ => rfl)).trans ?_
    unfold val_main_v51
    exact (concatenate_apply_piece (t := S4x3x16x512x512) (2 : Fin 5) _ _ (ix5 b c (⟨11, by decide⟩ : Fin 16) y w) 11 (by show 11 < 16; omega) S4x3x1x512x512 (val_main_v37 (F := Ideal) x0) rfl rfl 11 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_11 x0 b c y w)
  · -- shift 12: in the first stack, piece 12
    unfold val_main_v53
    refine (concatenate_pair_apply_left (t := S4x3x25x512x512) (s₁ := S4x3x16x512x512) (s₂ := S4x3x9x512x512) (2 : Fin 5) (val_main_v51 (F := Ideal) x0) (val_main_v52 (F := Ideal) x0) _ (ix5 b c (⟨12, by decide⟩ : Fin 25) y w) rfl
      (ix5 b c (⟨12, by decide⟩ : Fin 16) y w) (fun d => by
        match d with
        | ⟨0, _⟩ => rfl
        | ⟨1, _⟩ => rfl
        | ⟨2, _⟩ => rfl
        | ⟨3, _⟩ => rfl
        | ⟨4, _⟩ => rfl)).trans ?_
    unfold val_main_v51
    exact (concatenate_apply_piece (t := S4x3x16x512x512) (2 : Fin 5) _ _ (ix5 b c (⟨12, by decide⟩ : Fin 16) y w) 12 (by show 12 < 16; omega) S4x3x1x512x512 (val_main_v38 (F := Ideal) x0) rfl rfl 12 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_12 x0 b c y w)
  · -- shift 13: in the first stack, piece 13
    unfold val_main_v53
    refine (concatenate_pair_apply_left (t := S4x3x25x512x512) (s₁ := S4x3x16x512x512) (s₂ := S4x3x9x512x512) (2 : Fin 5) (val_main_v51 (F := Ideal) x0) (val_main_v52 (F := Ideal) x0) _ (ix5 b c (⟨13, by decide⟩ : Fin 25) y w) rfl
      (ix5 b c (⟨13, by decide⟩ : Fin 16) y w) (fun d => by
        match d with
        | ⟨0, _⟩ => rfl
        | ⟨1, _⟩ => rfl
        | ⟨2, _⟩ => rfl
        | ⟨3, _⟩ => rfl
        | ⟨4, _⟩ => rfl)).trans ?_
    unfold val_main_v51
    exact (concatenate_apply_piece (t := S4x3x16x512x512) (2 : Fin 5) _ _ (ix5 b c (⟨13, by decide⟩ : Fin 16) y w) 13 (by show 13 < 16; omega) S4x3x1x512x512 (val_main_v39 (F := Ideal) x0) rfl rfl 13 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_13 x0 b c y w)
  · -- shift 14: in the first stack, piece 14
    unfold val_main_v53
    refine (concatenate_pair_apply_left (t := S4x3x25x512x512) (s₁ := S4x3x16x512x512) (s₂ := S4x3x9x512x512) (2 : Fin 5) (val_main_v51 (F := Ideal) x0) (val_main_v52 (F := Ideal) x0) _ (ix5 b c (⟨14, by decide⟩ : Fin 25) y w) rfl
      (ix5 b c (⟨14, by decide⟩ : Fin 16) y w) (fun d => by
        match d with
        | ⟨0, _⟩ => rfl
        | ⟨1, _⟩ => rfl
        | ⟨2, _⟩ => rfl
        | ⟨3, _⟩ => rfl
        | ⟨4, _⟩ => rfl)).trans ?_
    unfold val_main_v51
    exact (concatenate_apply_piece (t := S4x3x16x512x512) (2 : Fin 5) _ _ (ix5 b c (⟨14, by decide⟩ : Fin 16) y w) 14 (by show 14 < 16; omega) S4x3x1x512x512 (val_main_v40 (F := Ideal) x0) rfl rfl 14 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_14 x0 b c y w)
  · -- shift 15: in the first stack, piece 15
    unfold val_main_v53
    refine (concatenate_pair_apply_left (t := S4x3x25x512x512) (s₁ := S4x3x16x512x512) (s₂ := S4x3x9x512x512) (2 : Fin 5) (val_main_v51 (F := Ideal) x0) (val_main_v52 (F := Ideal) x0) _ (ix5 b c (⟨15, by decide⟩ : Fin 25) y w) rfl
      (ix5 b c (⟨15, by decide⟩ : Fin 16) y w) (fun d => by
        match d with
        | ⟨0, _⟩ => rfl
        | ⟨1, _⟩ => rfl
        | ⟨2, _⟩ => rfl
        | ⟨3, _⟩ => rfl
        | ⟨4, _⟩ => rfl)).trans ?_
    unfold val_main_v51
    exact (concatenate_apply_piece (t := S4x3x16x512x512) (2 : Fin 5) _ _ (ix5 b c (⟨15, by decide⟩ : Fin 16) y w) 15 (by show 15 < 16; omega) S4x3x1x512x512 (val_main_v41 (F := Ideal) x0) rfl rfl 15 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_15 x0 b c y w)
  · -- shift 16: in the second stack, piece 0
    unfold val_main_v53
    refine (concatenate_pair_apply_right (t := S4x3x25x512x512) (s₁ := S4x3x16x512x512) (s₂ := S4x3x9x512x512) (2 : Fin 5) (val_main_v51 (F := Ideal) x0) (val_main_v52 (F := Ideal) x0) _ (ix5 b c (⟨16, by decide⟩ : Fin 25) y w) rfl rfl
      (ix5 b c (⟨0, by decide⟩ : Fin 9) y w) (fun d hd => by
        match d with
        | ⟨0, _⟩ => rfl
        | ⟨1, _⟩ => rfl
        | ⟨2, _⟩ => exact (hd rfl).elim
        | ⟨3, _⟩ => rfl
        | ⟨4, _⟩ => rfl) rfl).trans ?_
    unfold val_main_v52
    exact (concatenate_apply_piece (t := S4x3x9x512x512) (2 : Fin 5) _ _ (ix5 b c (⟨0, by decide⟩ : Fin 9) y w) 0 (by show 0 < 9; omega) S4x3x1x512x512 (val_main_v42 (F := Ideal) x0) rfl rfl 0 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_16 x0 b c y w)
  · -- shift 17: in the second stack, piece 1
    unfold val_main_v53
    refine (concatenate_pair_apply_right (t := S4x3x25x512x512) (s₁ := S4x3x16x512x512) (s₂ := S4x3x9x512x512) (2 : Fin 5) (val_main_v51 (F := Ideal) x0) (val_main_v52 (F := Ideal) x0) _ (ix5 b c (⟨17, by decide⟩ : Fin 25) y w) rfl rfl
      (ix5 b c (⟨1, by decide⟩ : Fin 9) y w) (fun d hd => by
        match d with
        | ⟨0, _⟩ => rfl
        | ⟨1, _⟩ => rfl
        | ⟨2, _⟩ => exact (hd rfl).elim
        | ⟨3, _⟩ => rfl
        | ⟨4, _⟩ => rfl) rfl).trans ?_
    unfold val_main_v52
    exact (concatenate_apply_piece (t := S4x3x9x512x512) (2 : Fin 5) _ _ (ix5 b c (⟨1, by decide⟩ : Fin 9) y w) 1 (by show 1 < 9; omega) S4x3x1x512x512 (val_main_v43 (F := Ideal) x0) rfl rfl 1 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_17 x0 b c y w)
  · -- shift 18: in the second stack, piece 2
    unfold val_main_v53
    refine (concatenate_pair_apply_right (t := S4x3x25x512x512) (s₁ := S4x3x16x512x512) (s₂ := S4x3x9x512x512) (2 : Fin 5) (val_main_v51 (F := Ideal) x0) (val_main_v52 (F := Ideal) x0) _ (ix5 b c (⟨18, by decide⟩ : Fin 25) y w) rfl rfl
      (ix5 b c (⟨2, by decide⟩ : Fin 9) y w) (fun d hd => by
        match d with
        | ⟨0, _⟩ => rfl
        | ⟨1, _⟩ => rfl
        | ⟨2, _⟩ => exact (hd rfl).elim
        | ⟨3, _⟩ => rfl
        | ⟨4, _⟩ => rfl) rfl).trans ?_
    unfold val_main_v52
    exact (concatenate_apply_piece (t := S4x3x9x512x512) (2 : Fin 5) _ _ (ix5 b c (⟨2, by decide⟩ : Fin 9) y w) 2 (by show 2 < 9; omega) S4x3x1x512x512 (val_main_v44 (F := Ideal) x0) rfl rfl 2 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_18 x0 b c y w)
  · -- shift 19: in the second stack, piece 3
    unfold val_main_v53
    refine (concatenate_pair_apply_right (t := S4x3x25x512x512) (s₁ := S4x3x16x512x512) (s₂ := S4x3x9x512x512) (2 : Fin 5) (val_main_v51 (F := Ideal) x0) (val_main_v52 (F := Ideal) x0) _ (ix5 b c (⟨19, by decide⟩ : Fin 25) y w) rfl rfl
      (ix5 b c (⟨3, by decide⟩ : Fin 9) y w) (fun d hd => by
        match d with
        | ⟨0, _⟩ => rfl
        | ⟨1, _⟩ => rfl
        | ⟨2, _⟩ => exact (hd rfl).elim
        | ⟨3, _⟩ => rfl
        | ⟨4, _⟩ => rfl) rfl).trans ?_
    unfold val_main_v52
    exact (concatenate_apply_piece (t := S4x3x9x512x512) (2 : Fin 5) _ _ (ix5 b c (⟨3, by decide⟩ : Fin 9) y w) 3 (by show 3 < 9; omega) S4x3x1x512x512 (val_main_v45 (F := Ideal) x0) rfl rfl 3 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_19 x0 b c y w)
  · -- shift 20: in the second stack, piece 4
    unfold val_main_v53
    refine (concatenate_pair_apply_right (t := S4x3x25x512x512) (s₁ := S4x3x16x512x512) (s₂ := S4x3x9x512x512) (2 : Fin 5) (val_main_v51 (F := Ideal) x0) (val_main_v52 (F := Ideal) x0) _ (ix5 b c (⟨20, by decide⟩ : Fin 25) y w) rfl rfl
      (ix5 b c (⟨4, by decide⟩ : Fin 9) y w) (fun d hd => by
        match d with
        | ⟨0, _⟩ => rfl
        | ⟨1, _⟩ => rfl
        | ⟨2, _⟩ => exact (hd rfl).elim
        | ⟨3, _⟩ => rfl
        | ⟨4, _⟩ => rfl) rfl).trans ?_
    unfold val_main_v52
    exact (concatenate_apply_piece (t := S4x3x9x512x512) (2 : Fin 5) _ _ (ix5 b c (⟨4, by decide⟩ : Fin 9) y w) 4 (by show 4 < 9; omega) S4x3x1x512x512 (val_main_v46 (F := Ideal) x0) rfl rfl 4 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_20 x0 b c y w)
  · -- shift 21: in the second stack, piece 5
    unfold val_main_v53
    refine (concatenate_pair_apply_right (t := S4x3x25x512x512) (s₁ := S4x3x16x512x512) (s₂ := S4x3x9x512x512) (2 : Fin 5) (val_main_v51 (F := Ideal) x0) (val_main_v52 (F := Ideal) x0) _ (ix5 b c (⟨21, by decide⟩ : Fin 25) y w) rfl rfl
      (ix5 b c (⟨5, by decide⟩ : Fin 9) y w) (fun d hd => by
        match d with
        | ⟨0, _⟩ => rfl
        | ⟨1, _⟩ => rfl
        | ⟨2, _⟩ => exact (hd rfl).elim
        | ⟨3, _⟩ => rfl
        | ⟨4, _⟩ => rfl) rfl).trans ?_
    unfold val_main_v52
    exact (concatenate_apply_piece (t := S4x3x9x512x512) (2 : Fin 5) _ _ (ix5 b c (⟨5, by decide⟩ : Fin 9) y w) 5 (by show 5 < 9; omega) S4x3x1x512x512 (val_main_v47 (F := Ideal) x0) rfl rfl 5 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_21 x0 b c y w)
  · -- shift 22: in the second stack, piece 6
    unfold val_main_v53
    refine (concatenate_pair_apply_right (t := S4x3x25x512x512) (s₁ := S4x3x16x512x512) (s₂ := S4x3x9x512x512) (2 : Fin 5) (val_main_v51 (F := Ideal) x0) (val_main_v52 (F := Ideal) x0) _ (ix5 b c (⟨22, by decide⟩ : Fin 25) y w) rfl rfl
      (ix5 b c (⟨6, by decide⟩ : Fin 9) y w) (fun d hd => by
        match d with
        | ⟨0, _⟩ => rfl
        | ⟨1, _⟩ => rfl
        | ⟨2, _⟩ => exact (hd rfl).elim
        | ⟨3, _⟩ => rfl
        | ⟨4, _⟩ => rfl) rfl).trans ?_
    unfold val_main_v52
    exact (concatenate_apply_piece (t := S4x3x9x512x512) (2 : Fin 5) _ _ (ix5 b c (⟨6, by decide⟩ : Fin 9) y w) 6 (by show 6 < 9; omega) S4x3x1x512x512 (val_main_v48 (F := Ideal) x0) rfl rfl 6 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_22 x0 b c y w)
  · -- shift 23: in the second stack, piece 7
    unfold val_main_v53
    refine (concatenate_pair_apply_right (t := S4x3x25x512x512) (s₁ := S4x3x16x512x512) (s₂ := S4x3x9x512x512) (2 : Fin 5) (val_main_v51 (F := Ideal) x0) (val_main_v52 (F := Ideal) x0) _ (ix5 b c (⟨23, by decide⟩ : Fin 25) y w) rfl rfl
      (ix5 b c (⟨7, by decide⟩ : Fin 9) y w) (fun d hd => by
        match d with
        | ⟨0, _⟩ => rfl
        | ⟨1, _⟩ => rfl
        | ⟨2, _⟩ => exact (hd rfl).elim
        | ⟨3, _⟩ => rfl
        | ⟨4, _⟩ => rfl) rfl).trans ?_
    unfold val_main_v52
    exact (concatenate_apply_piece (t := S4x3x9x512x512) (2 : Fin 5) _ _ (ix5 b c (⟨7, by decide⟩ : Fin 9) y w) 7 (by show 7 < 9; omega) S4x3x1x512x512 (val_main_v49 (F := Ideal) x0) rfl rfl 7 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_23 x0 b c y w)
  · -- shift 24: in the second stack, piece 8
    unfold val_main_v53
    refine (concatenate_pair_apply_right (t := S4x3x25x512x512) (s₁ := S4x3x16x512x512) (s₂ := S4x3x9x512x512) (2 : Fin 5) (val_main_v51 (F := Ideal) x0) (val_main_v52 (F := Ideal) x0) _ (ix5 b c (⟨24, by decide⟩ : Fin 25) y w) rfl rfl
      (ix5 b c (⟨8, by decide⟩ : Fin 9) y w) (fun d hd => by
        match d with
        | ⟨0, _⟩ => rfl
        | ⟨1, _⟩ => rfl
        | ⟨2, _⟩ => exact (hd rfl).elim
        | ⟨3, _⟩ => rfl
        | ⟨4, _⟩ => rfl) rfl).trans ?_
    unfold val_main_v52
    exact (concatenate_apply_piece (t := S4x3x9x512x512) (2 : Fin 5) _ _ (ix5 b c (⟨8, by decide⟩ : Fin 9) y w) 8 (by show 8 < 9; omega) S4x3x1x512x512 (val_main_v50 (F := Ideal) x0) rfl rfl 8 rfl
      (ix5 b c (⟨0, Nat.one_pos⟩ : Fin 1) y w) (fun d hd => by
        match d with
        | ⟨0, _⟩ => rfl
        | ⟨1, _⟩ => rfl
        | ⟨2, _⟩ => exact (hd rfl).elim
        | ⟨3, _⟩ => rfl
        | ⟨4, _⟩ => rfl) rfl).trans (shift_24 x0 b c y w)

/-- Tap `k` of the flattened patches is channel `k / 25` at shift `k mod 25`. -/
theorem patches_at (x0 : (⟨S4x3x512x512, .f32⟩ : BufTy).Contents (Elt Ideal)) (i : S4x75x512x512.Idx) :
    val_main_v54 (F := Ideal) x0 i
      = padded zpad x0 (i 0).val ((i 1).val / 25) ((i 2).val + (i 1).val % 25 / 5) ((i 3).val + (i 1).val % 25 % 5) := by
  have h0 : (i 0).val < 4 := (i 0).isLt
  have h1 : (i 1).val < 75 := (i 1).isLt
  have h2 : (i 2).val < 512 := (i 2).isLt
  have h3 : (i 3).val < 512 := (i 3).isLt
  rw [val_main_v54_apply]
  have e : idx_main_v54 i = ix5 (⟨(i 0).val, h0⟩ : Fin 4) (⟨(i 1).val / 25, by omega⟩ : Fin 3) (⟨(i 1).val % 25, by omega⟩ : Fin 25)
      (⟨(i 2).val, h2⟩ : Fin 512) (⟨(i 3).val, h3⟩ : Fin 512) := by
    funext a; apply Fin.ext
    match a with
    | ⟨0, _⟩ => show ((((i 0).val * 75 + (i 1).val) * 512 + (i 2).val) * 512 + (i 3).val) / 19660800 = (i 0).val; omega
    | ⟨1, _⟩ => show ((((i 0).val * 75 + (i 1).val) * 512 + (i 2).val) * 512 + (i 3).val) / 6553600 % 3 = (i 1).val / 25; omega
    | ⟨2, _⟩ => show ((((i 0).val * 75 + (i 1).val) * 512 + (i 2).val) * 512 + (i 3).val) / 262144 % 25 = (i 1).val % 25; omega
    | ⟨3, _⟩ => show ((((i 0).val * 75 + (i 1).val) * 512 + (i 2).val) * 512 + (i 3).val) / 512 % 512 = (i 2).val; omega
    | ⟨4, _⟩ => show ((((i 0).val * 75 + (i 1).val) * 512 + (i 2).val) * 512 + (i 3).val) % 512 = (i 3).val; omega
  rw [e, stack_at]

/-! ## The result -/

/-- The reference's result at (b, 0, y, w) is the filtered image there. -/
theorem result_at (x0 : (⟨S4x3x512x512, .f32⟩ : BufTy).Contents (Elt Ideal)) (x1 : (⟨S4x75x512x512, .f32⟩ : BufTy).Contents (Elt Ideal))
    (j : S4x1x512x512.Idx) :
    val_main_v57 (F := Ideal) x0 x1 j
      = filtered (Ideal.ofBits .f32 0x00000000#32) (padded zpad x0) (nat4 0 x1) (j 0).val (j 2).val (j 3).val := by
  rw [val_main_v57_apply, val_main_v56_apply]
  unfold filtered
  refine congrArg₂ (· + ·) rfl (Finset.sum_congr rfl fun k _ => ?_)
  rw [val_main_v55_apply, patches_at]
  have hk : k.val < 75 := k.isLt
  show padded zpad x0 (j 0).val (k.val / 25) ((j 2).val + k.val % 25 / 5) ((j 3).val + k.val % 25 % 5)
      * x1 (idx_main_v56 (idx_main_v57 j) k) = padded zpad x0 (j 0).val (k.val / 25) ((j 2).val + k.val % 25 / 5) ((j 3).val + k.val % 5) * _
  rw [Nat.mod_mod_of_dvd k.val (by decide : 5 ∣ 25), nat4_of_lt 0 x1 (j 0).isLt k.isLt (j 2).isLt (j 3).isLt]
  refine congrArg (_ * ·) (congrArg x1 (funext fun a => Fin.ext ?_))
  match a with
  | ⟨0, _⟩ => rfl
  | ⟨1, _⟩ => rfl
  | ⟨2, _⟩ => rfl
  | ⟨3, _⟩ => rfl

end Cert.ReferenceIdeal.RefValue

end
-- ==== Proof.lean ====
/-
  Per-pixel dynamic filtering: the kernel against its reference.

  The kernel pads the image (two zeros in front of every row and column, more behind), and at each of the 4 × 8 grid
  points (batch entry b, 64-row tile h) loads three 72-row windows of the padded image and the 75 filter planes of the
  tile, and stores the running sum of the 75 products "window shifted by (i, j), times filter tap 25·c + 5·i + j". The
  reference pads by two on every side, stacks the 25 shifted slices of each channel, flattens channel and shift into the
  75 taps, multiplies by the filter and sums over the taps.

  Read on the extended reals both results are, at pixel (b, y, w), the zero word plus the sum over the taps of the
  padded image at (b, c, y + i, w + j) times the filter's tap at the pixel: the kernel's running sum is that sum by
  associativity of addition alone, and the two paddings agree on every entry a tap reaches. Neither side's value needs
  the inputs to be finite, so the precondition is not used beyond being carried along.

  The frames: the kernel's body is run once symbolically at a grid point (the same text read at the word level and at
  the extended reals), which gives the software pipeline's obligation at every point; the reference is host operations
  only, and its frame is its run with the result dropped. Reading the program on the extended reals changed none of its
  operations, so there is nothing to preserve.
-/
import proofs.«131794_j68891275428414_2_alg».proof.Defs
import proofs.«131794_j68891275428414_2_alg».proof.Proof.Gen.Kernel
import proofs.«131794_j68891275428414_2_alg».proof.Proof.Gen.KernelIdeal
import proofs.«131794_j68891275428414_2_alg».proof.Proof.Gen.ReferenceIdeal
import proofs.«131794_j68891275428414_2_alg».proof.Proof.Gen.Pre_finite_inputs
import proofs.«131794_j68891275428414_2_alg».proof.Proof.Gen.ReferenceIdeal.Run
import proofs.«131794_j68891275428414_2_alg».proof.Proof.BodyBits
import proofs.«131794_j68891275428414_2_alg».proof.Proof.KernelFinal
import proofs.«131794_j68891275428414_2_alg».proof.Proof.RefValue
import Idealize.ShloMosaic.Adequacy
import Idealize.ShloMosaic.Init

noncomputable section

namespace Cert.Proof

open Idealize.ShloMosaic Idealize.ShloMosaic.TcCoe Idealize.SL.Sem Cert.DynFilter

/-- The kernel as printed terminates without a fault and leaves its arguments unchanged. -/
theorem frame_kernel : Cert.frame_Kernel := fun m ρ _ => Cert.Kernel.Hand.frame m ρ

/-- So does the kernel read on the extended reals. -/
theorem frame_kernelIdeal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The program read on the extended reals is the printed one, operation for operation. -/
theorem preserves : Cert.preserves_Kernel_KernelIdeal := trivial

/-- From memories that agree on the image and the filter both programs end with the filtered image in their result:
    the kernel's run and the reference's run are posted at ONE function of the arguments. -/
theorem algebraic : Cert.algebraic_KernelIdeal_ReferenceIdeal := by
  intro m ρ m' ρ' _ hagree
  refine ⟨fun c => Cert.KernelIdeal.Hand.resultFn m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq]
  funext j
  rw [Cert.ReferenceIdeal.RefValue.result_at, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
